-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S256x2048 : Shape := ⟨2, ![256, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S8192x1024 .f32) (main_arg1 : FVec F S1024x2048 .f32) (main_arg2 : FVec F S256x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  main_v13
-- ==== Kernel.lean ====
abbrev S8192x1024 : Shape := ⟨2, ![8192, 1024]⟩
abbrev S1024x2048 : Shape := ⟨2, ![1024, 2048]⟩
abbrev S256x2048 : Shape := ⟨2, ![256, 2048]⟩
abbrev S_ : Shape := ⟨0, ![]⟩
abbrev S2048 : Shape := ⟨1, ![2048]⟩
abbrev S1x2048 : Shape := ⟨2, ![1, 2048]⟩
abbrev S8192 : Shape := ⟨1, ![8192]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 20
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S256x2048, .f32⟩
  | .hbm, ⟨3, _⟩ => ⟨S1024x2048, .f32⟩
  | .hbm, ⟨4, _⟩ => ⟨S_, .f32⟩
  | .hbm, ⟨5, _⟩ => ⟨S2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S256x2048, .f32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S_, .f32⟩
  | .hbm, ⟨15, _⟩ => ⟨S1x2048, .f32⟩
  | .hbm, ⟨16, _⟩ => ⟨S1x2048, .f32⟩
  | .hbm, ⟨17, _⟩ => ⟨S1024x2048, .bf16⟩
  | .hbm, ⟨18, _⟩ => ⟨S256x2048, .bf16⟩
  | .hbm, ⟨19, _⟩ => ⟨S8192, .f32⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S256, .f32⟩
  | .local _ .vmem, ⟨7, _⟩ => ⟨S256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S1024x2048_S2048_d0 : S1024x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  reducesTo_S256x2048_S2048_d0 : S256x2048.ReducesTo [0] S2048
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S256x1024_S256 : S256x1024.Reduces [1] S256
  shapeCasts_S256_S256x1 : S256.ShapeCasts S256x1
  broadcasts_S256x1_S256x2048 : S256x1.Broadcasts S256x2048
  broadcasts_S1x2048_S256x2048 : S1x2048.Broadcasts S256x2048
  reduces_S256x2048_S256 : S256x2048.Reduces [1] S256
  reduces_S256x256_S256 : S256x256.Reduces [1] S256
  inb_S256_S256_0 : ∀ a, (![0] : Fin 1 → Nat) a + S256.size a ≤ S256.size a
  h_S256 : 0 < S256.numel
  dot_S256x1024_S1024x2048_S256x2048_1_0_0_1_n_n_wf : DotDims.WF S256x1024 S1024x2048 S256x2048 [1] [0] [0] [1] [] []
  dot_S256x2048_S256x2048_S256x256_1_1_0_0_n_n_wf : DotDims.WF S256x2048 S256x2048 S256x256 [1] [1] [0] [0] [] []
  dot_S256x256_S256x2048_S256x2048_1_0_0_1_n_n_wf : DotDims.WF S256x256 S256x2048 S256x2048 [1] [0] [0] [1] [] []
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x2048.size a
  hwx0_2 : ∀ i : grid0.Coords, EltTy.bits .bf16 = 32 ∨ (Rect.block (s := S256x2048) S256x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S8192.size a
  hwx0_5 : ∀ i : grid0.Coords, EltTy.bits .f32 = 32 ∨ (Rect.block (s := S8192) S256.size (cc0_transform_5 i) (hinb0_5 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x2048 : Shape := ⟨2, ![1, 2048]⟩
abbrev S8192x2048 : Shape := ⟨2, ![8192, 2048]⟩
abbrev S2048x256 : Shape := ⟨2, ![2048, 256]⟩
abbrev S8192x256 : Shape := ⟨2, ![8192, 256]⟩
abbrev S2048x1024 : Shape := ⟨2, ![2048, 1024]⟩

abbrev nBuf : Space → Nat
  | .hbm => 237
  | .vmem => 0
  | .smem => 0
  | _ => 0

abbrev hbmTy0_0 (i : Nat) : BufTy := match i % 128 with
  | 0 => ⟨S8192x1024, .f32⟩
  | 1 => ⟨S1024x2048, .f32⟩
  | 2 => ⟨S256x2048, .f32⟩
  | 3 => ⟨S8192x1024, .f32⟩
  | 4 => ⟨S_, .f32⟩
  | 5 => ⟨S8192, .f32⟩
  | 6 => ⟨S8192x1, .f32⟩
  | 7 => ⟨S_, .f32⟩
  | 8 => ⟨S8192x1, .f32⟩
  | 9 => ⟨S8192x1, .f32⟩
  | 10 => ⟨S1024x2048, .f32⟩
  | 11 => ⟨S_, .f32⟩
  | 12 => ⟨S2048, .f32⟩
  | 13 => ⟨S_, .f32⟩
  | 14 => ⟨S2048, .f32⟩
  | 15 => ⟨S2048, .f32⟩
  | 16 => ⟨S1x2048, .f32⟩
  | 17 => ⟨S8192x2048, .f32⟩
  | 18 => ⟨S_, .f32⟩
  | 19 => ⟨S8192x2048, .f32⟩
  | 20 => ⟨S8192x2048, .f32⟩
  | 21 => ⟨S8192x2048, .f32⟩
  | 22 => ⟨S8192x2048, .f32⟩
  | 23 => ⟨S8192x2048, .f32⟩
  | 24 => ⟨S8192x2048, .f32⟩
  | 25 => ⟨S_, .f32⟩
  | 26 => ⟨S8192, .f32⟩
  | 27 => ⟨S_, .f32⟩
  | 28 => ⟨S8192, .f32⟩
  | 29 => ⟨S8192, .f32⟩
  | 30 => ⟨S8192x1, .f32⟩
  | 31 => ⟨S8192x2048, .f32⟩
  | 32 => ⟨S8192x2048, .f32⟩
  | 33 => ⟨S8192x2048, .f32⟩
  | 34 => ⟨S_, .f32⟩
  | 35 => ⟨S8192, .f32⟩
  | 36 => ⟨S8192x1, .f32⟩
  | 37 => ⟨S8192x2048, .f32⟩
  | 38 => ⟨S8192x2048, .f32⟩
  | 39 => ⟨S2048x256, .f32⟩
  | 40 => ⟨S8192x256, .f32⟩
  | 41 => ⟨S8192x256, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S256x2048, .f32⟩
  | 49 => ⟨S_, .f32⟩
  | 50 => ⟨S2048, .f32⟩
  | 51 => ⟨S_, .f32⟩
  | 52 => ⟨S2048, .f32⟩
  | 53 => ⟨S2048, .f32⟩
  | 54 => ⟨S1x2048, .f32⟩
  | 55 => ⟨S8192x2048, .f32⟩
  | 56 => ⟨S_, .f32⟩
  | 57 => ⟨S8192x2048, .f32⟩
  | 58 => ⟨S8192x2048, .f32⟩
  | 59 => ⟨S8192x2048, .f32⟩
  | 60 => ⟨S8192x2048, .f32⟩
  | 61 => ⟨S8192x2048, .f32⟩
  | 62 => ⟨S8192x2048, .f32⟩
  | 63 => ⟨S8192x2048, .f32⟩
  | 64 => ⟨S_, .f32⟩
  | 65 => ⟨S8192, .f32⟩
  | 66 => ⟨S8192x1, .f32⟩
  | 67 => ⟨S_, .f32⟩
  | 68 => ⟨S8192x1, .f32⟩
  | 69 => ⟨S8192x1, .f32⟩
  | 70 => ⟨S8192x2048, .f32⟩
  | 71 => ⟨S8192x2048, .f32⟩
  | 72 => ⟨S8192x2048, .f32⟩
  | 73 => ⟨S_, .f32⟩
  | 74 => ⟨S8192, .f32⟩
  | 75 => ⟨S8192x1, .f32⟩
  | 76 => ⟨S8192x2048, .f32⟩
  | 77 => ⟨S8192x2048, .f32⟩
  | 78 => ⟨S2048x256, .f32⟩
  | 79 => ⟨S8192x256, .f32⟩
  | 80 => ⟨S8192x256, .f32⟩
  | 81 => ⟨S_, .f32⟩
  | 82 => ⟨S8192, .f32⟩
  | 83 => ⟨S8192x1, .f32⟩
  | 84 => ⟨S_, .f32⟩
  | 85 => ⟨S8192x1, .f32⟩
  | 86 => ⟨S8192x1, .f32⟩
  | 87 => ⟨S256x2048, .f32⟩
  | 88 => ⟨S_, .f32⟩
  | 89 => ⟨S2048, .f32⟩
  | 90 => ⟨S_, .f32⟩
  | 91 => ⟨S2048, .f32⟩
  | 92 => ⟨S2048, .f32⟩
  | 93 => ⟨S1x2048, .f32⟩
  | 94 => ⟨S8192x2048, .f32⟩
  | 95 => ⟨S_, .f32⟩
  | 96 => ⟨S8192x2048, .f32⟩
  | 97 => ⟨S8192x2048, .f32⟩
  | 98 => ⟨S8192x2048, .f32⟩
  | 99 => ⟨S8192x2048, .f32⟩
  | 100 => ⟨S8192x2048, .f32⟩
  | 101 => ⟨S8192x2048, .f32⟩
  | 102 => ⟨S8192x2048, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S8192x2048, .f32⟩
  | 110 => ⟨S8192x2048, .f32⟩
  | 111 => ⟨S8192x2048, .f32⟩
  | 112 => ⟨S_, .f32⟩
  | 113 => ⟨S8192, .f32⟩
  | 114 => ⟨S8192x1, .f32⟩
  | 115 => ⟨S8192x2048, .f32⟩
  | 116 => ⟨S8192x2048, .f32⟩
  | 117 => ⟨S2048x256, .f32⟩
  | 118 => ⟨S8192x256, .f32⟩
  | 119 => ⟨S8192x256, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S256x2048, .f32⟩
  | 127 => ⟨S_, .f32⟩
  | _ => ⟨S8192x1024, .f32⟩

abbrev hbmTy0_1 (i : Nat) : BufTy := match i % 128 with
  | 0 => ⟨S2048, .f32⟩
  | 1 => ⟨S_, .f32⟩
  | 2 => ⟨S2048, .f32⟩
  | 3 => ⟨S2048, .f32⟩
  | 4 => ⟨S1x2048, .f32⟩
  | 5 => ⟨S8192x2048, .f32⟩
  | 6 => ⟨S_, .f32⟩
  | 7 => ⟨S8192x2048, .f32⟩
  | 8 => ⟨S8192x2048, .f32⟩
  | 9 => ⟨S8192x2048, .f32⟩
  | 10 => ⟨S8192x2048, .f32⟩
  | 11 => ⟨S8192x2048, .f32⟩
  | 12 => ⟨S8192x2048, .f32⟩
  | 13 => ⟨S8192x2048, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S8192x2048, .f32⟩
  | 21 => ⟨S8192x2048, .f32⟩
  | 22 => ⟨S8192x2048, .f32⟩
  | 23 => ⟨S_, .f32⟩
  | 24 => ⟨S8192, .f32⟩
  | 25 => ⟨S8192x1, .f32⟩
  | 26 => ⟨S8192x2048, .f32⟩
  | 27 => ⟨S8192x2048, .f32⟩
  | 28 => ⟨S2048x256, .f32⟩
  | 29 => ⟨S8192x256, .f32⟩
  | 30 => ⟨S8192x256, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S256x2048, .f32⟩
  | 38 => ⟨S_, .f32⟩
  | 39 => ⟨S2048, .f32⟩
  | 40 => ⟨S_, .f32⟩
  | 41 => ⟨S2048, .f32⟩
  | 42 => ⟨S2048, .f32⟩
  | 43 => ⟨S1x2048, .f32⟩
  | 44 => ⟨S8192x2048, .f32⟩
  | 45 => ⟨S_, .f32⟩
  | 46 => ⟨S8192x2048, .f32⟩
  | 47 => ⟨S8192x2048, .f32⟩
  | 48 => ⟨S8192x2048, .f32⟩
  | 49 => ⟨S8192x2048, .f32⟩
  | 50 => ⟨S8192x2048, .f32⟩
  | 51 => ⟨S8192x2048, .f32⟩
  | 52 => ⟨S8192x2048, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S8192x2048, .f32⟩
  | 60 => ⟨S8192x2048, .f32⟩
  | 61 => ⟨S8192x2048, .f32⟩
  | 62 => ⟨S_, .f32⟩
  | 63 => ⟨S8192, .f32⟩
  | 64 => ⟨S8192x1, .f32⟩
  | 65 => ⟨S8192x2048, .f32⟩
  | 66 => ⟨S8192x2048, .f32⟩
  | 67 => ⟨S2048x256, .f32⟩
  | 68 => ⟨S8192x256, .f32⟩
  | 69 => ⟨S8192x256, .f32⟩
  | 70 => ⟨S_, .f32⟩
  | 71 => ⟨S8192, .f32⟩
  | 72 => ⟨S8192x1, .f32⟩
  | 73 => ⟨S_, .f32⟩
  | 74 => ⟨S8192x1, .f32⟩
  | 75 => ⟨S8192x1, .f32⟩
  | 76 => ⟨S256x2048, .f32⟩
  | 77 => ⟨S_, .f32⟩
  | 78 => ⟨S2048, .f32⟩
  | 79 => ⟨S_, .f32⟩
  | 80 => ⟨S2048, .f32⟩
  | 81 => ⟨S2048, .f32⟩
  | 82 => ⟨S1x2048, .f32⟩
  | 83 => ⟨S8192x2048, .f32⟩
  | 84 => ⟨S_, .f32⟩
  | 85 => ⟨S8192x2048, .f32⟩
  | 86 => ⟨S8192x2048, .f32⟩
  | 87 => ⟨S8192x2048, .f32⟩
  | 88 => ⟨S8192x2048, .f32⟩
  | 89 => ⟨S8192x2048, .f32⟩
  | 90 => ⟨S8192x2048, .f32⟩
  | 91 => ⟨S8192x2048, .f32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S8192x2048, .f32⟩
  | 99 => ⟨S8192x2048, .f32⟩
  | 100 => ⟨S2048x1024, .f32⟩
  | 101 => ⟨S8192x1024, .f32⟩
  | 102 => ⟨S8192x1024, .f32⟩
  | 103 => ⟨S8192x1024, .f32⟩
  | 104 => ⟨S_, .f32⟩
  | 105 => ⟨S8192, .f32⟩
  | 106 => ⟨S_, .f32⟩
  | 107 => ⟨S8192, .f32⟩
  | 108 => ⟨S8192, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_v49 : Ref sig .tc := ⟨.hbm, 66, rfl⟩
abbrev main_cst_13 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_15 : Ref sig .tc := ⟨.hbm, 81, rfl⟩
abbrev main_v62 : Ref sig .tc := ⟨.hbm, 82, rfl⟩
abbrev main_v63 : Ref sig .tc := ⟨.hbm, 83, rfl⟩
abbrev main_cst_16 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_17 : Ref sig .tc := ⟨.hbm, 88, rfl⟩
abbrev main_v67 : Ref sig .tc := ⟨.hbm, 89, rfl⟩
abbrev main_cst_18 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_19 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_20 : Ref sig .tc := ⟨.hbm, 103, rfl⟩
abbrev main_v79 : Ref sig .tc := ⟨.hbm, 104, rfl⟩
abbrev main_v80 : Ref sig .tc := ⟨.hbm, 105, rfl⟩
abbrev main_cst_21 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_22 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_23 : Ref sig .tc := ⟨.hbm, 120, rfl⟩
abbrev main_v93 : Ref sig .tc := ⟨.hbm, 121, rfl⟩
abbrev main_v94 : Ref sig .tc := ⟨.hbm, 122, rfl⟩
abbrev main_cst_24 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_25 : Ref sig .tc := ⟨.hbm, 127, rfl⟩
abbrev main_v98 : Ref sig .tc := ⟨.hbm, 128, rfl⟩
abbrev main_cst_26 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_27 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_28 : Ref sig .tc := ⟨.hbm, 142, rfl⟩
abbrev main_v110 : Ref sig .tc := ⟨.hbm, 143, rfl⟩
abbrev main_v111 : Ref sig .tc := ⟨.hbm, 144, rfl⟩
abbrev main_cst_29 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_30 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_31 : Ref sig .tc := ⟨.hbm, 159, rfl⟩
abbrev main_v124 : Ref sig .tc := ⟨.hbm, 160, rfl⟩
abbrev main_v125 : Ref sig .tc := ⟨.hbm, 161, rfl⟩
abbrev main_cst_32 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_cst_33 : Ref sig .tc := ⟨.hbm, 166, rfl⟩
abbrev main_v129 : Ref sig .tc := ⟨.hbm, 167, rfl⟩
abbrev main_cst_34 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_35 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_36 : Ref sig .tc := ⟨.hbm, 181, rfl⟩
abbrev main_v141 : Ref sig .tc := ⟨.hbm, 182, rfl⟩
abbrev main_v142 : Ref sig .tc := ⟨.hbm, 183, rfl⟩
abbrev main_cst_37 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_38 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_39 : Ref sig .tc := ⟨.hbm, 198, rfl⟩
abbrev main_v155 : Ref sig .tc := ⟨.hbm, 199, rfl⟩
abbrev main_v156 : Ref sig .tc := ⟨.hbm, 200, rfl⟩
abbrev main_cst_40 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_41 : Ref sig .tc := ⟨.hbm, 205, rfl⟩
abbrev main_v160 : Ref sig .tc := ⟨.hbm, 206, rfl⟩
abbrev main_cst_42 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_cst_43 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_cst_44 : Ref sig .tc := ⟨.hbm, 220, rfl⟩
abbrev main_v172 : Ref sig .tc := ⟨.hbm, 221, rfl⟩
abbrev main_v173 : Ref sig .tc := ⟨.hbm, 222, rfl⟩
abbrev main_cst_45 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_46 : Ref sig .tc := ⟨.hbm, 232, rfl⟩
abbrev main_v182 : Ref sig .tc := ⟨.hbm, 233, rfl⟩
abbrev main_cst_47 : Ref sig .tc := ⟨.hbm, 234, rfl⟩
abbrev main_v183 : Ref sig .tc := ⟨.hbm, 235, rfl⟩
abbrev main_v184 : Ref sig .tc := ⟨.hbm, 236, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  reducesTo_S1024x2048_S2048_d0 : S1024x2048.ReducesTo [0] S2048
  bcast_S_S2048 : S_.BroadcastsInDim S2048 (![] : Fin 0 → Fin S2048.rank)
  bcast_S2048_S1x2048_1 : S2048.BroadcastsInDim S1x2048 (![1] : Fin 1 → Fin S1x2048.rank)
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  reducesTo_S8192x2048_S8192_d1 : S8192x2048.ReducesTo [1] S8192
  bcast_S_S8192 : S_.BroadcastsInDim S8192 (![] : Fin 0 → Fin S8192.rank)
  transposes_S256x2048_S2048x256_1_0 : S256x2048.Transposes [1, 0] S2048x256
  reducesTo_S8192x256_S8192_d1 : S8192x256.ReducesTo [1] S8192
  reducesTo_S256x2048_S2048_d0 : S256x2048.ReducesTo [0] S2048
  transposes_S1024x2048_S2048x1024_1_0 : S1024x2048.Transposes [1, 0] S2048x1024
  dot_S8192x1024_S1024x2048_S8192x2048_1_0_0_1_n_n_wf : DotDims.WF S8192x1024 S1024x2048 S8192x2048 [1] [0] [0] [1] [] []
  dot_S8192x2048_S2048x256_S8192x256_1_0_0_1_n_n_wf : DotDims.WF S8192x2048 S2048x256 S8192x256 [1] [0] [0] [1] [] []
  dot_S8192x256_S256x2048_S8192x2048_1_0_0_1_n_n_wf : DotDims.WF S8192x256 S256x2048 S8192x2048 [1] [0] [0] [1] [] []
  dot_S8192x2048_S2048x1024_S8192x1024_1_0_0_1_n_n_wf : DotDims.WF S8192x2048 S2048x1024 S8192x1024 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x256_S8192x256_1_0_0_1_n_n : DotDims S8192x2048 S2048x256 S8192x256 where
  lhsContracting := [1]
  rhsContracting := [0]
  lhsNonContracting := [0]
  rhsNonContracting := [1]
  lhsBatch := []
  rhsBatch := []
  wf := dot_S8192x2048_S2048x256_S8192x256_1_0_0_1_n_n_wf
def dot_S8192x256_S256x2048_S8192x2048_1_0_0_1_n_n : DotDims S8192x256 S256x2048 S8192x2048 where
  lhsContracting := [1]
  rhsContracting := [0]
  lhsNonContracting := [0]
  rhsNonContracting := [1]
  lhsBatch := []
  rhsBatch := []
  wf := dot_S8192x256_S256x2048_S8192x2048_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.Spec.lean ====
/-
  The mathematics both programs compute, one image row at a time, over the extended reals.

  A row `x` (1024 entries) is scored against the 2048 columns of a table `A` by minus its mean squared distance to
  each column, in the expanded form `(x · A_k) · (2/1024) − mean(x²) − mean(A_k²)`; the scores go through a softmax
  (shifted by the row's greatest score) to weights `pik`; a code `z = pik · Bᵀ` (256 entries) is formed with a second
  table `B`. Four times the code is re-scored against `B`'s columns the same way (`(z · B_k) · (2/256) − mean(z²) −
  mean(B_k²)`), the exponentials of the scores are damped by `0.1 +` their sum, multiplied by `pik`, normalised to sum
  one, and a new code is formed. At the end the damped exponentials of the last code reconstruct a row `q · Aᵀ`, and
  the result is the mean squared difference between that row and `x`.

  Every sum is a finite sum in the extended reals (commutative and associative there), every quotient is the total
  quotient `Ideal.div`, and the float words keep their binary values: nothing is assumed finite.
-/
import Idealize.ShloMosaic.PureOps.Ideal
import Idealize.ShloMosaic.Lib.ValueIdx

noncomputable section

open scoped BigOperators

namespace Cert.Spec

open Idealize.ShloMosaic Idealize.ShloMosaic.ValueIdx

/-- Row `r` of a matrix given by coordinates. -/
abbrev row {R D : ℕ} (X : (⟨2, ![R, D]⟩ : Shape).Idx → EReal) (r : Fin R) : Fin D → EReal := fun g => X (ix2 r g)

/-- A matrix as a function of its two coordinates. -/
abbrev tab {D K : ℕ} (C : (⟨2, ![D, K]⟩ : Shape).Idx → EReal) : Fin D → Fin K → EReal := fun g k => C (ix2 g k)

/-- The only entry-carrying axis of a one-row matrix. -/
abbrev rowVec {K : ℕ} (c : (⟨2, ![1, K]⟩ : Shape).Idx → EReal) : Fin K → EReal := fun k => c (ix2 (0 : Fin 1) k)

variable {D K : ℕ}

/-- The mean of the squares of column `k` of a table, the divisor `d` being the column's length as a float. -/
def colMeanSq (d : EReal) (C : Fin D → Fin K → EReal) (k : Fin K) : EReal :=
  Ideal.div (∑ g, C g k * C g k) d

/-- Minus the mean squared distance of `x` to column `k` of `C`, expanded: the inner product scaled by `s` (two over
    the length), less the mean square of `x`, less the column's mean square `c2 k`. -/
def logit (d s : EReal) (x : Fin D → EReal) (C : Fin D → Fin K → EReal) (c2 : Fin K → EReal) (k : Fin K) : EReal :=
  (∑ g, x g * C g k) * s - Ideal.div (∑ g, x g * x g) d - c2 k

/-- The greatest score of a row, never below minus infinity's word. -/
def rowMax (l : Fin K → EReal) : EReal :=
  max (Ideal.ofBits .f32 0xFF800000#32) ((Finset.univ : Finset (Fin K)).fold max (Ideal.ofBits .f32 0xFF800000#32) l)

/-- The softmax of a row of scores, shifted by the row's greatest score. -/
def softmaxRow (l : Fin K → EReal) (k : Fin K) : EReal :=
  Ideal.div (Ideal.exp (l k - rowMax l)) (∑ j, Ideal.exp (l j - rowMax l))

/-- A weighted combination of a table's rows: entry `e` is `∑ k, p k · C e k`. -/
def project (p : Fin K → EReal) (C : Fin D → Fin K → EReal) (e : Fin D) : EReal := ∑ k, p k * C e k

/-- A row divided by `0.1 +` its sum. -/
def damp (q : Fin K → EReal) (k : Fin K) : EReal := Ideal.div (q k) (Ideal.ofBits .f32 0x3DCCCCCD#32 + ∑ j, q j)

/-- A row divided by its sum. -/
def normalize (w : Fin K → EReal) (k : Fin K) : EReal := Ideal.div (w k) (∑ j, w j)

/-- The exponentials of a code's scores against the columns of `B`. -/
def expLogit (z : Fin 256 → EReal) (B : Fin 256 → Fin K → EReal) (c2 : Fin K → EReal) (k : Fin K) : EReal :=
  Ideal.exp (logit (Ideal.ofBits .f32 0x43800000#32) (Ideal.ofBits .f32 0x3C000000#32) z B c2 k)

/-- The weights of one refinement: `pik` times the damped exponentials of the code's scores. -/
def weigh (pik : Fin K → EReal) (q : Fin K → EReal) (k : Fin K) : EReal := pik k * damp q k

/-- One refinement of the code. -/
def emStep (pik : Fin K → EReal) (B : Fin 256 → Fin K → EReal) (c2 : Fin K → EReal) (z : Fin 256 → EReal) : Fin 256 → EReal :=
  project (normalize (weigh pik (expLogit z B c2))) B

/-- The mean squared difference between the reconstruction `q · Aᵀ` and the row. -/
def loss (x : Fin 1024 → EReal) (A : Fin 1024 → Fin K → EReal) (q : Fin K → EReal) : EReal :=
  Ideal.div (∑ g, (project q A g - x g) * (project q A g - x g)) (Ideal.ofBits .f32 0x44800000#32)

/-- The softmax weights of a row against `A`. -/
def encode (x : Fin 1024 → EReal) (A : Fin 1024 → Fin K → EReal) (ca : Fin K → EReal) : Fin K → EReal :=
  softmaxRow (logit (Ideal.ofBits .f32 0x44800000#32) (Ideal.ofBits .f32 0x3B000000#32) x A ca)

/-- The code after `n` refinements, from the weights `pik`. -/
def codeAfter (pik : Fin K → EReal) (B : Fin 256 → Fin K → EReal) (cb : Fin K → EReal) : ℕ → Fin 256 → EReal
  | 0 => project pik B
  | n + 1 => emStep pik B cb (codeAfter pik B cb n)

/-- The whole computation for one row, the two tables' column mean squares `ca`, `cb` given: four refinements of
    the code, then the mean squared difference of the reconstruction. -/
def rowLoss (x : Fin 1024 → EReal) (A : Fin 1024 → Fin K → EReal) (B : Fin 256 → Fin K → EReal) (ca cb : Fin K → EReal) : EReal :=
  loss x A (damp (expLogit (codeAfter (encode x A ca) B cb 4) B cb))

end Cert.Spec

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibPlainProduct.lean ====
/-
  A product of an m×k matrix with the TRANSPOSE of an n×k matrix, read at one entry.

  A linear layer `y = x · Wᵀ` with the weight stored [out, in] prints in a kernel as a `tpu.matmul` of the rows with
  `tpu.transpose W` into a zero accumulator, and on the host as a `dot_general` of the rows with `stablehlo.transpose W`;
  both have the dimension numbers of the plain product (contract the left operand's axis 1 with the right operand's
  axis 0, no batch axis). At the ideal values either one, read at entry (a, b), is the sum over the contracted
  coordinate c of `x (a, c) · W (b, c)`: the accumulator is the zero of the extended reals, which `0 + s = s` drops, and the
  transpose only names the entry (c, b) of its result as the entry (b, c) of its operand. Nothing here needs the entries
  to be finite.
-/
import Idealize.ShloMosaic.Lib.StackMember
import Idealize.ShloMosaic.Lib.KernelVsHost
import Idealize.ShloMosaic.Lib.Pipeline.Value
import Idealize.ShloMosaic.Lib.ValueIdx

noncomputable section

open scoped BigOperators

namespace Idealize.ShloMosaic.PlainProduct

open Idealize.ShloMosaic Idealize.ShloMosaic.ValueIdx

variable {m k n : Nat} {φ₁ φ₂ : FTy}

/-- The transpose of an n×k matrix, read at (c, b), is the matrix at (b, c). -/
theorem transpose_swap_apply {α : Type} (W : (⟨2, ![n, k]⟩ : Shape).Idx → α)
    (h : (⟨2, ![n, k]⟩ : Shape).Transposes [1, 0] ⟨2, ![k, n]⟩) (c : Fin k) (b : Fin n) :
    transpose ⟨2, ![k, n]⟩ [1, 0] W h (ix2 c b) = W (ix2 b c) :=
  transpose_apply [1, 0] W h (ix2 c b) (ix2 b c) fun ax => by
    match ax with
    | ⟨0, _⟩ => rfl
    | ⟨1, _⟩ => rfl

/-- A host `dot_general` whose dimension numbers are the plain product's, read at (a, b): the sum over the contracted
    coordinate of the products of the entries. -/
theorem dotGeneral_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- A kernel's `tpu.matmul` with those dimension numbers into the zero splat, read at (a, b): the same sum. -/
theorem matmul_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  rw [matmul_zero_eq_dotGeneral]
  exact dotGeneral_of_plain D hD prec A B a b

/-- THE HOST'S LINEAR LAYER at an entry: `dot_general` of the rows with the transposed weight is `∑ c, x (a, c) · W (b, c)`. -/
theorem dotGeneral_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    Host.dotGeneral D prec A (transpose ⟨2, ![k, n]⟩ [1, 0] W h) (ix2 a b) = ∑ c : Fin k, A (ix2 a c) * W (ix2 b c) := by
  rw [dotGeneral_of_plain D hD]
  exact Finset.sum_congr rfl fun c _ => by rw [transpose_swap_apply]

/-- THE KERNEL'S LINEAR LAYER at an entry: `tpu.matmul` of the rows with the transposed weight into the zero splat is the
    same sum. -/
theorem matmul_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    matmul D prec A (transpose ⟨2, ![k, n]⟩ [1, 0] W h) (constant ⟨2, ![m, n]⟩ .f32 0x00000000#32) (ix2 a b)
      = ∑ c : Fin k, A (ix2 a c) * W (ix2 b c) := by
  rw [matmul_of_plain D hD]
  exact Finset.sum_congr rfl fun c _ => by rw [transpose_swap_apply]

end Idealize.ShloMosaic.PlainProduct

end
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.KernelOps.lean ====
/-
  The kernel's vector operations, read at an index by coordinates at this program's block shapes.

  A block has 256 rows. A column `[256, 1]` or a row `[1, 2048]` copied to `[256, 2048]`, a vector `[256]` laid out as
  a column, sums and maxima along the rows of a block, and the four matrix products into a zero accumulator, each
  as the plain finite sum or fold it is over the extended reals. A change of float format is the identity there.
-/
import proofs.«114782_j88330297409972_1_alg».proof.Proof.Spec
import proofs.«114782_j88330297409972_1_alg».proof.Proof.Gen.KernelIdeal
import proofs.«114782_j88330297409972_1_alg».proof.Proof.LibRowForms
import proofs.«114782_j88330297409972_1_alg».proof.Proof.LibColumnForms
import proofs.«114782_j88330297409972_1_alg».proof.Proof.LibPlainProduct
import proofs.«114782_j88330297409972_1_alg».proof.Proof.LibRowsTimesRows
import Idealize.ShloMosaic.Lib.ValueLayout

noncomputable section

open scoped BigOperators

namespace Cert.KernelOps

open Cert.KernelIdeal Cert.KernelIdeal.Gen
open Idealize.ShloMosaic Idealize.ShloMosaic.ValueIdx Cert.Spec

theorem scalarWord (w : BitVec 32) : (Scalar.ofBits (F := Ideal) .f32 w) = Ideal.ofBits .f32 w := rfl
theorem exp_apply {s : Shape} (a : FVec Ideal s .f32) (i : s.Idx) : exp a i = Ideal.exp (a i) := rfl

theorem col_apply {α : Type} (h : S256x1.Broadcasts S256x2048) (v : S256x1.Idx → α) (p : Fin 256) (k : Fin 2048) :
    broadcastTo S256x2048 v h (ix2 p k) = v (ix2 p (0 : Fin 1)) :=
  ColumnForms.broadcastTo_a1_ab_apply v h p k

theorem vec_apply {α : Type} (h : S256.ShapeCasts S256x1) (v : S256.Idx → α) (p : Fin 256) (u : Fin 1) :
    shapeCast S256x1 v h (ix2 p u) = v (ix1 p) :=
  ColumnForms.shapeCast_a_a1_apply v h p u

theorem rowcopy_apply {α : Type} (h : S1x2048.Broadcasts S256x2048) (v : S1x2048.Idx → α) (p : Fin 256) (k : Fin 2048) :
    broadcastTo S256x2048 v h (ix2 p k) = v (ix2 (0 : Fin 1) k) :=
  broadcastTo_1b_ab_apply v h p k

theorem sum1024 (x : FVec Ideal S256x1024 .f32) (h : S256x1024.Reduces [1] S256) (p : Fin 256) :
    multiReduction .add [1] S256 x 0x00000000#32 h (.inl rfl) rfl (ix1 p) = ∑ g : Fin 1024, x (ix2 p g) :=
  RowForms.multiReduction_add_rows x h p

theorem sum2048 (x : FVec Ideal S256x2048 .f32) (h : S256x2048.Reduces [1] S256) (p : Fin 256) :
    multiReduction .add [1] S256 x 0x00000000#32 h (.inl rfl) rfl (ix1 p) = ∑ k : Fin 2048, x (ix2 p k) :=
  RowForms.multiReduction_add_rows x h p

theorem sum256 (x : FVec Ideal S256x256 .f32) (h : S256x256.Reduces [1] S256) (p : Fin 256) :
    multiReduction .add [1] S256 x 0x00000000#32 h (.inl rfl) rfl (ix1 p) = ∑ e : Fin 256, x (ix2 p e) :=
  RowForms.multiReduction_add_rows x h p

theorem max2048 (x : FVec Ideal S256x2048 .f32) (h : S256x2048.Reduces [1] S256) (p : Fin 256) :
    multiReduction .maximumf [1] S256 x 0xFF800000#32 h (.inl rfl) rfl (ix1 p)
      = (Finset.univ : Finset (Fin 2048)).fold max (Ideal.ofBits .f32 0xFF800000#32) (fun k => x (ix2 p k)) :=
  RowForms.multiReduction_max_rows x h p

theorem dotA_apply (x : FVec Ideal S256x1024 .bf16) (A2 : FVec Ideal S1024x2048 .bf16) (p : Fin 256) (k : Fin 2048) :
    matmul dot_S256x1024_S1024x2048_S256x2048_1_0_0_1_n_n none x A2 (constant S256x2048 .f32 0x00000000#32) (ix2 p k)
      = ∑ g : Fin 1024, x (ix2 p g) * A2 (ix2 g k) :=
  PlainProduct.matmul_of_plain _ rfl none x A2 p k

theorem dotB_apply (z : FVec Ideal S256x256 .bf16) (B4 : FVec Ideal S256x2048 .bf16) (p : Fin 256) (k : Fin 2048) :
    matmul dot_S256x256_S256x2048_S256x2048_1_0_0_1_n_n none z B4 (constant S256x2048 .f32 0x00000000#32) (ix2 p k)
      = ∑ e : Fin 256, z (ix2 p e) * B4 (ix2 e k) :=
  PlainProduct.matmul_of_plain _ rfl none z B4 p k

theorem dotBt_apply (P : FVec Ideal S256x2048 .bf16) (B4 : FVec Ideal S256x2048 .bf16) (p : Fin 256) (e : Fin 256) :
    matmul dot_S256x2048_S256x2048_S256x256_1_1_0_0_n_n none P B4 (constant S256x256 .f32 0x00000000#32) (ix2 p e)
      = ∑ k : Fin 2048, P (ix2 p k) * B4 (ix2 e k) :=
  RowsTimesRows.rowsMatmul_zero_apply _ none P B4 p e

theorem dotAt_apply (Q : FVec Ideal S256x2048 .bf16) (A2 : FVec Ideal S1024x2048 .bf16) (p : Fin 256) (g : Fin 1024) :
    matmul dot_S256x2048_S1024x2048_S256x1024_1_1_0_0_n_n none Q A2 (constant S256x1024 .f32 0x00000000#32) (ix2 p g)
      = ∑ k : Fin 2048, Q (ix2 p k) * A2 (ix2 g k) :=
  RowsTimesRows.rowsMatmul_zero_apply _ none Q A2 p g

end Cert.KernelOps

end
-- ==== Proof.KernelRows.lean ====
/-
  The kernel's body read one row of the block at a time.

  At a grid point the body works on a block of 256 image rows with the two whole tables and their column mean
  squares. Every operation of it either acts entry by entry, or reduces along a row of the block, or multiplies the
  block's rows by a table: so entry `(p, k)` of each stage depends on row `p` of the stage before and on the tables
  alone. The stages are named here as functions, the skeleton's payloads are identified with their compositions, and
  each stage is read at a row as the row-level function of the specification.
-/
import proofs.«114782_j88330297409972_1_alg».proof.Proof.Spec
import proofs.«114782_j88330297409972_1_alg».proof.Proof.Gen.KernelIdeal.Skeleton
import proofs.«114782_j88330297409972_1_alg».proof.Proof.KernelOps

noncomputable section

open scoped BigOperators

namespace Cert.KernelRows

open Cert.KernelIdeal Cert.KernelIdeal.Gen
open Idealize.ShloMosaic Idealize.ShloMosaic.ValueIdx Cert.Spec Cert.KernelOps

/-! ## The stages as functions of the stage before -/

/-- The scores of the block's rows against the columns of `A`, the columns' mean squares `ca` given. -/
def scoresA (x0 : FVec Ideal S256x1024 .f32) (A2 : FVec Ideal S1024x2048 .bf16) (ca : FVec Ideal S1x2048 .f32) : FVec Ideal S256x2048 .f32 :=
  subf (subf (mulf (matmul dot_S256x1024_S1024x2048_S256x2048_1_0_0_1_n_n none (truncf .bf16 x0 bitsLt_bf16_f32) A2 (constant S256x2048 .f32 0x00000000#32)) (broadcast S256x2048 (Scalar.ofBits .f32 0x3B000000#32))) (broadcastTo S256x2048 (divf (shapeCast S256x1 (multiReduction .add [1] S256 (mulf x0 x0) 0x00000000#32 reduces_S256x1024_S256 (.inl rfl) rfl) shapeCasts_S256_S256x1) (broadcast S256x1 (Scalar.ofBits .f32 0x44800000#32))) broadcasts_S256x1_S256x2048)) (broadcastTo S256x2048 ca broadcasts_S1x2048_S256x2048)

/-- The exponentials of the scores shifted by each row's greatest score. -/
def expShift (Lg : FVec Ideal S256x2048 .f32) : FVec Ideal S256x2048 .f32 :=
  exp (subf Lg (broadcastTo S256x2048 (shapeCast S256x1 (maximumf (broadcast S256 (Scalar.ofBits .f32 0xFF800000#32)) (multiReduction .maximumf [1] S256 Lg 0xFF800000#32 reduces_S256x2048_S256 (.inl rfl) rfl)) shapeCasts_S256_S256x1) broadcasts_S256x1_S256x2048))

/-- Every row divided by its sum. -/
def normRows (E : FVec Ideal S256x2048 .f32) : FVec Ideal S256x2048 .f32 :=
  divf E (broadcastTo S256x2048 (shapeCast S256x1 (multiReduction .add [1] S256 E 0x00000000#32 reduces_S256x2048_S256 (.inl rfl) rfl) shapeCasts_S256_S256x1) broadcasts_S256x1_S256x2048)

/-- The code of every row: its weights combined with the rows of `B`. -/
def codes (P : FVec Ideal S256x2048 .f32) (B4 : FVec Ideal S256x2048 .bf16) : FVec Ideal S256x256 .f32 :=
  matmul dot_S256x2048_S256x2048_S256x256_1_1_0_0_n_n none (truncf .bf16 P bitsLt_bf16_f32) B4 (constant S256x256 .f32 0x00000000#32)

/-- The exponentials of every code's scores against the columns of `B`, the columns' mean squares `cb` given. -/
def expScoresB (Z : FVec Ideal S256x256 .f32) (B4 : FVec Ideal S256x2048 .bf16) (cb : FVec Ideal S1x2048 .f32) : FVec Ideal S256x2048 .f32 :=
  exp (subf (subf (mulf (matmul dot_S256x256_S256x2048_S256x2048_1_0_0_1_n_n none (truncf .bf16 Z bitsLt_bf16_f32) B4 (constant S256x2048 .f32 0x00000000#32)) (broadcast S256x2048 (Scalar.ofBits .f32 0x3C000000#32))) (broadcastTo S256x2048 (divf (shapeCast S256x1 (multiReduction .add [1] S256 (mulf Z Z) 0x00000000#32 reduces_S256x256_S256 (.inl rfl) rfl) shapeCasts_S256_S256x1) (broadcast S256x1 (Scalar.ofBits .f32 0x43800000#32))) broadcasts_S256x1_S256x2048)) (broadcastTo S256x2048 cb broadcasts_S1x2048_S256x2048))

/-- Every row divided by `0.1 +` its sum. -/
def dampRows (Q : FVec Ideal S256x2048 .f32) : FVec Ideal S256x2048 .f32 :=
  divf Q (broadcastTo S256x2048 (addf (broadcast S256x1 (Scalar.ofBits .f32 0x3DCCCCCD#32)) (shapeCast S256x1 (multiReduction .add [1] S256 Q 0x00000000#32 reduces_S256x2048_S256 (.inl rfl) rfl) shapeCasts_S256_S256x1)) broadcasts_S256x1_S256x2048)

/-- Every row reconstructed from its weights and the rows of `A`. -/
def recon (Q : FVec Ideal S256x2048 .f32) (A2 : FVec Ideal S1024x2048 .bf16) : FVec Ideal S256x1024 .f32 :=
  matmul dot_S256x2048_S1024x2048_S256x1024_1_1_0_0_n_n none (truncf .bf16 Q bitsLt_bf16_f32) A2 (constant S256x1024 .f32 0x00000000#32)

/-- The mean of the squares of every row of a difference. -/
def meanSqRows (Dm : FVec Ideal S256x1024 .f32) : FVec Ideal S256 .f32 :=
  divf (multiReduction .add [1] S256 (mulf Dm Dm) 0x00000000#32 reduces_S256x1024_S256 (.inl rfl) rfl) (broadcast S256 (Scalar.ofBits .f32 0x44800000#32))

/-- One refinement of the codes. -/
def refine (P : FVec Ideal S256x2048 .f32) (B4 : FVec Ideal S256x2048 .bf16) (cb : FVec Ideal S1x2048 .f32)
    (Z : FVec Ideal S256x256 .f32) : FVec Ideal S256x256 .f32 :=
  codes (normRows (mulf P (dampRows (expScoresB Z B4 cb)))) B4

/-- The sum of every row, as a column. -/
def rowSums (W : FVec Ideal S256x2048 .f32) : FVec Ideal S256x1 .f32 :=
  shapeCast S256x1 (multiReduction .add [1] S256 W 0x00000000#32 reduces_S256x2048_S256 (.inl rfl) rfl) shapeCasts_S256_S256x1

/-- The whole body on a block. -/
def body (x0 : FVec Ideal S256x1024 .f32) (A2 : FVec Ideal S1024x2048 .bf16) (B4 : FVec Ideal S256x2048 .bf16)
    (ca cb : FVec Ideal S1x2048 .f32) : FVec Ideal S256 .f32 :=
  meanSqRows (subf (recon (dampRows (expScoresB
    (refine (normRows (expShift (scoresA x0 A2 ca))) B4 cb (refine (normRows (expShift (scoresA x0 A2 ca))) B4 cb
      (refine (normRows (expShift (scoresA x0 A2 ca))) B4 cb (refine (normRows (expShift (scoresA x0 A2 ca))) B4 cb
        (codes (normRows (expShift (scoresA x0 A2 ca))) B4))))) B4 cb)) A2) x0)

/-! ## The skeleton's payloads are compositions of the stages -/

theorem pay5_eq (v0 : Vec Ideal S256x1024 .f32) (v1 : Vec Ideal S1024x2048 .bf16) (v5 : Vec Ideal S1x2048 .f32) :
    k0_pay5 v0 v1 v5 = normRows (expShift (scoresA v0 (k0_pay2 v1) (shapeCast S1x2048 v5 shapeCasts_S1x2048_S1x2048))) := rfl

theorem pay6_eq (v0 : Vec Ideal S256x1024 .f32) (v1 : Vec Ideal S1024x2048 .bf16) (v3 : Vec Ideal S256x2048 .bf16) (v5 : Vec Ideal S1x2048 .f32) :
    k0_pay6 v0 v1 v3 v5 = codes (k0_pay5 v0 v1 v5) (k0_pay3 v3) := rfl

theorem pay7_eq (v0 : Vec Ideal S256x1024 .f32) (v1 : Vec Ideal S1024x2048 .bf16) (v3 : Vec Ideal S256x2048 .bf16) (v5 : Vec Ideal S1x2048 .f32) :
    k0_pay7 v0 v1 v3 v5 = truncf .bf16 (k0_pay6 v0 v1 v3 v5) bitsLt_bf16_f32 := rfl

theorem pay8_eq (v0 : Vec Ideal S256x1024 .f32) (v1 : Vec Ideal S1024x2048 .bf16) (v3 : Vec Ideal S256x2048 .bf16) (v5 : Vec Ideal S1x2048 .f32) :
    k0_pay8 v0 v1 v3 v5 = shapeCast S256x1 (multiReduction .add [1] S256 (mulf (k0_pay6 v0 v1 v3 v5) (k0_pay6 v0 v1 v3 v5)) 0x00000000#32 reduces_S256x256_S256 (.inl rfl) rfl) shapeCasts_S256_S256x1 := rfl

theorem pay9_eq (v4 : FVec Ideal S256x2048 .bf16) (v8 : FVec Ideal S1x2048 .f32) (P : FVec Ideal S256x2048 .f32) (Z0 : FVec Ideal S256x256 .f32) :
    k0_pay9 v4 v8 P (truncf .bf16 Z0 bitsLt_bf16_f32)
        (shapeCast S256x1 (multiReduction .add [1] S256 (mulf Z0 Z0) 0x00000000#32 reduces_S256x256_S256 (.inl rfl) rfl) shapeCasts_S256_S256x1)
        (Scalar.ofBits .f32 0x43800000#32)
      = mulf P (dampRows (expScoresB (refine P v4 v8 Z0) v4 v8)) := rfl

theorem pay10_eq (v4 : FVec Ideal S256x2048 .bf16) (v8 : FVec Ideal S1x2048 .f32) (P : FVec Ideal S256x2048 .f32)
    (z35 : FVec Ideal S256x256 .bf16) (z38 : FVec Ideal S256x1 .f32) (c : Ideal .f32) :
    k0_pay10 v4 v8 P z35 z38 c = broadcastTo S256x2048 (rowSums (k0_pay9 v4 v8 P z35 z38 c)) broadcasts_S256x1_S256x2048 := rfl

theorem pay11_eq (v4 : FVec Ideal S256x2048 .bf16) (v8 : FVec Ideal S1x2048 .f32) (P W : FVec Ideal S256x2048 .f32) :
    k0_pay11 v4 v8 P W (broadcastTo S256x2048 (rowSums W) broadcasts_S256x1_S256x2048)
      = expScoresB (refine P v4 v8 (codes (normRows W) v4)) v4 v8 := rfl

theorem pay12_eq (v4 : FVec Ideal S256x2048 .bf16) (v8 : FVec Ideal S1x2048 .f32) (P W Wb : FVec Ideal S256x2048 .f32) :
    k0_pay12 v4 v8 P W Wb = rowSums (k0_pay11 v4 v8 P W Wb) := rfl

theorem pay1_eq (v0 : Vec Ideal S256x1024 .f32) (v2 : FVec Ideal S1024x2048 .bf16) (v4 : FVec Ideal S256x2048 .bf16)
    (v8 : FVec Ideal S1x2048 .f32) (P E : FVec Ideal S256x2048 .f32) :
    k0_pay1 v0 v2 v4 v8 P E (rowSums E)
      = meanSqRows (subf (recon (dampRows (expScoresB (codes (normRows (mulf P (dampRows E))) v4) v4 v8)) v2) v0) := rfl

/-! ## Each stage at a row of the block -/

theorem scoresA_apply (x0 : FVec Ideal S256x1024 .f32) (A2 : FVec Ideal S1024x2048 .bf16) (ca : FVec Ideal S1x2048 .f32)
    (p : Fin 256) (k : Fin 2048) :
    scoresA x0 A2 ca (ix2 p k) = logit (Ideal.ofBits .f32 0x44800000#32) (Ideal.ofBits .f32 0x3B000000#32) (row x0 p) (tab A2)
      (rowVec ca) k := by
  simp only [scoresA, logit, subf_apply, mulf_apply, divf_apply, truncf_apply, broadcast_apply, scalarWord, col_apply, vec_apply,
    rowcopy_apply, dotA_apply]
  rw [sum1024]
  rfl

theorem expShift_apply (Lg : FVec Ideal S256x2048 .f32) (l : Fin 256 → Fin 2048 → EReal) (h : ∀ p k, Lg (ix2 p k) = l p k)
    (p : Fin 256) (k : Fin 2048) : expShift Lg (ix2 p k) = Ideal.exp (l p k - rowMax (l p)) := by
  simp only [expShift, exp_apply, subf_apply, col_apply, vec_apply, h]
  rw [maximumf_apply, broadcast_apply, scalarWord, max2048]
  have hl : (fun j => Lg (ix2 p j)) = l p := funext fun j => h p j
  rw [hl]
  rfl

theorem normRows_apply (E : FVec Ideal S256x2048 .f32) (e : Fin 256 → Fin 2048 → EReal) (h : ∀ p k, E (ix2 p k) = e p k)
    (p : Fin 256) (k : Fin 2048) : normRows E (ix2 p k) = normalize (e p) k := by
  simp only [normRows, Spec.normalize, divf_apply, col_apply, vec_apply, h]
  rw [sum2048]
  simp only [h]

theorem codes_apply (P : FVec Ideal S256x2048 .f32) (B4 : FVec Ideal S256x2048 .bf16) (w : Fin 256 → Fin 2048 → EReal)
    (h : ∀ p k, P (ix2 p k) = w p k) (p : Fin 256) (e : Fin 256) : codes P B4 (ix2 p e) = project (w p) (tab B4) e := by
  unfold codes project
  rw [dotBt_apply]
  exact Finset.sum_congr rfl fun k _ => congrArg (· * B4 (ix2 e k)) (h p k)

theorem expScoresB_apply (Z : FVec Ideal S256x256 .f32) (B4 : FVec Ideal S256x2048 .bf16) (cb : FVec Ideal S1x2048 .f32)
    (z : Fin 256 → Fin 256 → EReal) (h : ∀ p e, Z (ix2 p e) = z p e) (p : Fin 256) (k : Fin 2048) :
    expScoresB Z B4 cb (ix2 p k) = expLogit (z p) (tab B4) (rowVec cb) k := by
  simp only [expScoresB, expLogit, logit, exp_apply, subf_apply, mulf_apply, divf_apply, truncf_apply, broadcast_apply, scalarWord,
    col_apply, vec_apply, rowcopy_apply, dotB_apply, h]
  rw [sum256]
  simp only [mulf_apply, h]

theorem dampRows_apply (Q : FVec Ideal S256x2048 .f32) (q : Fin 256 → Fin 2048 → EReal) (h : ∀ p k, Q (ix2 p k) = q p k)
    (p : Fin 256) (k : Fin 2048) : dampRows Q (ix2 p k) = damp (q p) k := by
  simp only [dampRows, damp, divf_apply, addf_apply, broadcast_apply, scalarWord, col_apply, vec_apply, h]
  rw [sum2048]
  simp only [h]

theorem recon_apply (Q : FVec Ideal S256x2048 .f32) (A2 : FVec Ideal S1024x2048 .bf16) (q : Fin 256 → Fin 2048 → EReal)
    (h : ∀ p k, Q (ix2 p k) = q p k) (p : Fin 256) (g : Fin 1024) : recon Q A2 (ix2 p g) = project (q p) (tab A2) g := by
  unfold recon project
  rw [dotAt_apply]
  exact Finset.sum_congr rfl fun k _ => congrArg (· * A2 (ix2 g k)) (h p k)

theorem meanSqDiff_apply (Q : FVec Ideal S256x2048 .f32) (A2 : FVec Ideal S1024x2048 .bf16) (x0 : FVec Ideal S256x1024 .f32)
    (q : Fin 256 → Fin 2048 → EReal) (h : ∀ p k, Q (ix2 p k) = q p k) (p : Fin 256) :
    meanSqRows (subf (recon Q A2) x0) (ix1 p) = loss (row x0 p) (tab A2) (q p) := by
  simp only [meanSqRows, loss, divf_apply, broadcast_apply, scalarWord]
  rw [sum1024]
  simp only [mulf_apply, subf_apply, recon_apply Q A2 q h]

/-- The code after one refinement, at a row of the block. -/
theorem refine_apply (P : FVec Ideal S256x2048 .f32) (B4 : FVec Ideal S256x2048 .bf16) (cb : FVec Ideal S1x2048 .f32)
    (Z : FVec Ideal S256x256 .f32) (w : Fin 256 → Fin 2048 → EReal) (z : Fin 256 → Fin 256 → EReal)
    (hP : ∀ p k, P (ix2 p k) = w p k) (hZ : ∀ p e, Z (ix2 p e) = z p e) (p : Fin 256) (e : Fin 256) :
    refine P B4 cb Z (ix2 p e) = emStep (w p) (tab B4) (rowVec cb) (z p) e := by
  have hQ : ∀ p k, expScoresB Z B4 cb (ix2 p k) = expLogit (z p) (tab B4) (rowVec cb) k := expScoresB_apply Z B4 cb z hZ
  have hD : ∀ p k, dampRows (expScoresB Z B4 cb) (ix2 p k) = damp (expLogit (z p) (tab B4) (rowVec cb)) k :=
    dampRows_apply (expScoresB Z B4 cb) (fun p => expLogit (z p) (tab B4) (rowVec cb)) hQ
  have hW : ∀ p k, mulf P (dampRows (expScoresB Z B4 cb)) (ix2 p k) = weigh (w p) (expLogit (z p) (tab B4) (rowVec cb)) k :=
    fun p k => congrArg₂ (· * ·) (hP p k) (hD p k)
  have hN : ∀ p k, normRows (mulf P (dampRows (expScoresB Z B4 cb))) (ix2 p k)
      = normalize (weigh (w p) (expLogit (z p) (tab B4) (rowVec cb))) k :=
    normRows_apply (mulf P (dampRows (expScoresB Z B4 cb))) (fun p => weigh (w p) (expLogit (z p) (tab B4) (rowVec cb))) hW
  exact codes_apply (normRows (mulf P (dampRows (expScoresB Z B4 cb)))) B4
    (fun p => normalize (weigh (w p) (expLogit (z p) (tab B4) (rowVec cb)))) hN p e

/-- The softmax weights at a row of the block. -/
theorem weights_apply (x0 : FVec Ideal S256x1024 .f32) (A2 : FVec Ideal S1024x2048 .bf16) (ca : FVec Ideal S1x2048 .f32)
    (p : Fin 256) (k : Fin 2048) :
    normRows (expShift (scoresA x0 A2 ca)) (ix2 p k) = encode (row x0 p) (tab A2) (rowVec ca) k :=
  normRows_apply (expShift (scoresA x0 A2 ca))
    (fun p k => Ideal.exp (logit (Ideal.ofBits .f32 0x44800000#32) (Ideal.ofBits .f32 0x3B000000#32) (row x0 p) (tab A2) (rowVec ca) k
      - rowMax (logit (Ideal.ofBits .f32 0x44800000#32) (Ideal.ofBits .f32 0x3B000000#32) (row x0 p) (tab A2) (rowVec ca))))
    (expShift_apply (scoresA x0 A2 ca)
      (fun p => logit (Ideal.ofBits .f32 0x44800000#32) (Ideal.ofBits .f32 0x3B000000#32) (row x0 p) (tab A2) (rowVec ca))
      (scoresA_apply x0 A2 ca)) p k

/-- THE BODY'S RESULT AT A ROW OF THE BLOCK: the specification's function of that image row, the two tables and the
    column mean squares the body is given. -/
theorem body_row (x0 : FVec Ideal S256x1024 .f32) (A2 : FVec Ideal S1024x2048 .bf16) (B4 : FVec Ideal S256x2048 .bf16)
    (ca cb : FVec Ideal S1x2048 .f32) (p : Fin 256) :
    body x0 A2 B4 ca cb (ix1 p) = rowLoss (row x0 p) (tab A2) (tab B4) (rowVec ca) (rowVec cb) := by
  unfold body
  obtain ⟨P, hPdef⟩ : ∃ P : FVec Ideal S256x2048 .f32, P = normRows (expShift (scoresA x0 A2 ca)) := ⟨_, rfl⟩
  rw [← hPdef]
  obtain ⟨enc, henc⟩ : ∃ enc : Fin 256 → Fin 2048 → EReal, ∀ p, enc p = encode (row x0 p) (tab A2) (rowVec ca) :=
    ⟨fun p => encode (row x0 p) (tab A2) (rowVec ca), fun _ => rfl⟩
  have hP : ∀ p k, P (ix2 p k) = enc p k := fun p k => by rw [hPdef, henc]; exact weights_apply x0 A2 ca p k
  have h0 : ∀ p e, codes P B4 (ix2 p e) = codeAfter (enc p) (tab B4) (rowVec cb) 0 e := codes_apply P B4 enc hP
  have h1 : ∀ p e, refine P B4 cb (codes P B4) (ix2 p e) = codeAfter (enc p) (tab B4) (rowVec cb) 1 e :=
    refine_apply P B4 cb (codes P B4) enc (fun p => codeAfter (enc p) (tab B4) (rowVec cb) 0) hP h0
  have h2 : ∀ p e, refine P B4 cb (refine P B4 cb (codes P B4)) (ix2 p e) = codeAfter (enc p) (tab B4) (rowVec cb) 2 e :=
    refine_apply P B4 cb _ enc (fun p => codeAfter (enc p) (tab B4) (rowVec cb) 1) hP h1
  have h3 : ∀ p e, refine P B4 cb (refine P B4 cb (refine P B4 cb (codes P B4))) (ix2 p e)
      = codeAfter (enc p) (tab B4) (rowVec cb) 3 e :=
    refine_apply P B4 cb _ enc (fun p => codeAfter (enc p) (tab B4) (rowVec cb) 2) hP h2
  have h4 : ∀ p e, refine P B4 cb (refine P B4 cb (refine P B4 cb (refine P B4 cb (codes P B4)))) (ix2 p e)
      = codeAfter (enc p) (tab B4) (rowVec cb) 4 e :=
    refine_apply P B4 cb _ enc (fun p => codeAfter (enc p) (tab B4) (rowVec cb) 3) hP h3
  have hq : ∀ p k, dampRows (expScoresB (refine P B4 cb (refine P B4 cb (refine P B4 cb (refine P B4 cb (codes P B4))))) B4 cb) (ix2 p k)
      = damp (expLogit (codeAfter (enc p) (tab B4) (rowVec cb) 4) (tab B4) (rowVec cb)) k :=
    dampRows_apply _ (fun p => expLogit (codeAfter (enc p) (tab B4) (rowVec cb) 4) (tab B4) (rowVec cb))
      (expScoresB_apply _ B4 cb (fun p => codeAfter (enc p) (tab B4) (rowVec cb) 4) h4)
  rw [meanSqDiff_apply _ A2 x0 (fun p => damp (expLogit (codeAfter (enc p) (tab B4) (rowVec cb) 4) (tab B4) (rowVec cb))) hq p, henc]
  rfl

end Cert.KernelRows

end
-- ==== Proof.KernelBlock.lean ====
/-
  What a grid point writes back, row by row.

  The body stores once, the whole 256-entry output block; what it stores is the stages' composition applied to the
  point's five input blocks (the image rows' block, the two whole tables, the two rows of column mean squares).
  So entry `p` of the output block is the specification's function of row `p` of the image block.
-/
import proofs.«114782_j88330297409972_1_alg».proof.Proof.Spec
import proofs.«114782_j88330297409972_1_alg».proof.Proof.Gen.KernelIdeal.Frame
import proofs.«114782_j88330297409972_1_alg».proof.Proof.KernelRows
import Idealize.ShloMosaic.Lib.Pipeline.Value

noncomputable section

open scoped BigOperators

namespace Cert.KernelBlock

open Cert.KernelIdeal Cert.KernelIdeal.Gen
open Idealize.ShloMosaic Idealize.ShloMosaic.ValueIdx Cert.Spec Cert.KernelRows

theorem hz1 : (![0] : Fin 1 → Nat) = fun _ => 0 := funext fun a => by fin_cases a <;> rfl
theorem hz2 : (![0, 0] : Fin 2 → Nat) = fun _ => 0 := funext fun a => by fin_cases a <;> rfl

/-- The output block after the body is the stages' composition of the input blocks. -/
theorem out_eq (x0 : Vec Ideal S256x1024 .f32) (x1 : Vec Ideal S1024x2048 .bf16) (x2 : Vec Ideal S256x2048 .bf16)
    (x3 x4 : Vec Ideal S1x2048 .f32) :
    out0_5 x0 x1 x2 x3 x4 = body x0 x1 x2 x3 x4 := by
  unfold out0_5
  rw [View.canon_unit_zero hz1]
  simp only [View.ld_unit_zero (S := S256x1024) hz2, View.ld_unit_zero (S := S1024x2048) hz2,
    View.ld_unit_zero (S := S256x2048) hz2, View.ld_unit_zero (S := S1x2048) hz2]
  rw [pay12_eq, pay1_eq, pay10_eq, pay11_eq, pay7_eq, pay8_eq, pay9_eq, pay6_eq, pay5_eq]
  have e2 : k0_pay2 x1 = x1 := shapeCast_self x1 _
  have e3 : k0_pay3 x2 = x2 := shapeCast_self x2 _
  have e4 : k0_pay4 x4 = x4 := shapeCast_self x4 _
  have e5 : shapeCast S1x2048 x3 shapeCasts_S1x2048_S1x2048 = x3 := shapeCast_self x3 _
  rw [e2, e3, e4, e5]
  rfl

/-- Entry `y` of the output block: the specification's function of row `y` of the image block. -/
theorem blockValue (x0 : Vec Ideal S256x1024 .f32) (x1 : Vec Ideal S1024x2048 .bf16) (x2 : Vec Ideal S256x2048 .bf16)
    (x3 x4 : Vec Ideal S1x2048 .f32) (y : S256.Idx) :
    out0_5 x0 x1 x2 x3 x4 y = rowLoss (row x0 (y 0)) (tab x1) (tab x2) (rowVec x3) (rowVec x4) := by
  rw [out_eq, eq_ix1 y]
  exact body_row x0 x1 x2 x3 x4 (y 0)

end Cert.KernelBlock

end
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.KernelTables.lean ====
/-
  What the kernel's table windows hold when the region is entered.

  Before the call the host forms four arrays from the two tables: each table in the narrower float format — the
  same values over the extended reals — and, for each table, the row of its columns' mean squares: the sum of the
  squares down each column, laid out as a row, divided by the number of rows as a float.
-/
import proofs.«114782_j88330297409972_1_alg».proof.Proof.Spec
import proofs.«114782_j88330297409972_1_alg».proof.Proof.Gen.KernelIdeal.Frame
import proofs.«114782_j88330297409972_1_alg».proof.Proof.LibHostRowForms
import Idealize.ShloMosaic.Lib.StableHlo.Run
import Idealize.ShloMosaic.Lib.Pipeline.Value

noncomputable section

open scoped BigOperators

namespace Cert.KernelTables

open Cert.KernelIdeal Cert.KernelIdeal.Gen
open Idealize.ShloMosaic Idealize.ShloMosaic.TcCoe Idealize.ShloMosaic.ValueIdx Idealize.ShloMosaic.StableHlo Idealize.SL.Sem
open Cert.Spec Cert.HostRowForms

variable (m : (ℓ : Loc nD τ sig) → Buf (Elt Ideal) ℓ)

/-- The image rows as launched. -/
abbrev argX (c : Dev nD) : FVec Ideal S8192x1024 .f32 := m ((c : Thread nD τ).loc main_arg0)
/-- The first table as launched. -/
abbrev argA (c : Dev nD) : FVec Ideal S1024x2048 .f32 := m ((c : Thread nD τ).loc main_arg1)
/-- The second table as launched. -/
abbrev argB (c : Dev nD) : FVec Ideal S256x2048 .f32 := m ((c : Thread nD τ).loc main_arg2)

theorem vecrow_apply {α : Type} (dims) (h : S2048.BroadcastsInDim S1x2048 dims) (v : S2048.Idx → α) (u : Fin 1) (k : Fin 2048) :
    broadcastInDim S1x2048 dims h v (ix2 u k) = v (ix1 k) :=
  bcast_b_1b_apply v dims (dims_eq_of_size h 0 1 (by decide) (by decide)) h u k

/-- The first table's window holds the table's values. -/
theorem V_tableA (c : Dev nD) : (V m c main_v10 : S1024x2048.Idx → EReal) = argA m c := by
  dsimp only [V, hostOps0]; after_results; rfl

/-- The second table's window holds the table's values. -/
theorem V_tableB (c : Dev nD) : (V m c main_v11 : S256x2048.Idx → EReal) = argB m c := by
  dsimp only [V, hostOps0]; after_results; rfl

/-- The fourth window holds the mean squares of the first table's columns. -/
theorem V_ca (c : Dev nD) (k : Fin 2048) :
    (V m c main_v4 : S1x2048.Idx → EReal) (ix2 (0 : Fin 1) k) = colMeanSq (Ideal.ofBits .f32 0x44800000#32) (tab (argA m c)) k := by
  have e : (V m c main_v4 : S1x2048.Idx → EReal)
      = Host.divf (broadcastInDim S1x2048 ![1] bcast_S2048_S1x2048_1 (Host.reduceAdd (mulf (argA m c) (argA m c)) (constant S_ .f32 0x00000000#32) reducesTo_S1024x2048_S2048_d0 h_S_))
          (broadcastInDim S1x2048 ![] bcast_S_S1x2048 (constant (F := Ideal) S_ .f32 0x44800000#32)) := by
    dsimp only [V, hostOps0]; after_results
  rw [e]
  show Ideal.div (broadcastInDim S1x2048 _ bcast_S2048_S1x2048_1 _ (ix2 (0 : Fin 1) k)) (broadcastInDim S1x2048 _ bcast_S_S1x2048 _ (ix2 (0 : Fin 1) k)) = _
  rw [vecrow_apply, bcast_scalar_apply, reduceAdd_cols _ _ (by decide)]
  rfl

/-- The fifth window holds the mean squares of the second table's columns. -/
theorem V_cb (c : Dev nD) (k : Fin 2048) :
    (V m c main_v9 : S1x2048.Idx → EReal) (ix2 (0 : Fin 1) k) = colMeanSq (Ideal.ofBits .f32 0x43800000#32) (tab (argB m c)) k := by
  have e : (V m c main_v9 : S1x2048.Idx → EReal)
      = Host.divf (broadcastInDim S1x2048 ![1] bcast_S2048_S1x2048_1 (Host.reduceAdd (mulf (argB m c) (argB m c)) (constant S_ .f32 0x00000000#32) reducesTo_S256x2048_S2048_d0 h_S_))
          (broadcastInDim S1x2048 ![] bcast_S_S1x2048 (constant (F := Ideal) S_ .f32 0x43800000#32)) := by
    dsimp only [V, hostOps0]; after_results
  rw [e]
  show Ideal.div (broadcastInDim S1x2048 _ bcast_S2048_S1x2048_1 _ (ix2 (0 : Fin 1) k)) (broadcastInDim S1x2048 _ bcast_S_S1x2048 _ (ix2 (0 : Fin 1) k)) = _
  rw [vecrow_apply, bcast_scalar_apply, reduceAdd_cols _ _ (by decide)]
  rfl

end Cert.KernelTables

end
-- ==== Proof.KernelArray.lean ====
/-
  From the blocks to the whole output array.

  Grid point `t` of 32 stages rows `256·t … 256·t + 255` of the images, the two tables whole, and the two rows of
  column mean squares, and writes back entries `256·t … 256·t + 255` of the output. Each entry it writes is the
  specification's function of that image row and the tables; the 32 output blocks tile the 8192 entries. So after
  the run entry `i` of the output is that function of image row `i`.
-/
import proofs.«114782_j88330297409972_1_alg».proof.Proof.Spec
import proofs.«114782_j88330297409972_1_alg».proof.Proof.Gen.KernelIdeal.Value
import proofs.«114782_j88330297409972_1_alg».proof.Proof.KernelBlock
import proofs.«114782_j88330297409972_1_alg».proof.Proof.KernelTables

noncomputable section

open scoped BigOperators

namespace Cert.KernelArray

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)
open Cert.Spec Cert.KernelTables Cert.KernelBlock

variable (m : (ℓ : Loc nD τ sig) → Buf (Elt Ideal) ℓ) (ρ : Dev nD → PrngReg)

/-- THE OUTPUT ARRAY: entry `i` is the specification's function of image row `i` and the two tables, the column mean
    squares being the tables' own. -/
def result (c : Dev nD) : S8192.Idx → EReal := fun i =>
  rowLoss (row (argX m c) (i 0)) (tab (argA m c)) (tab (argB m c))
    (colMeanSq (Ideal.ofBits .f32 0x44800000#32) (tab (argA m c))) (colMeanSq (Ideal.ofBits .f32 0x43800000#32) (tab (argB m c)))

/-- The printed index maps over the grid: the image window and the output window move with the point, the table
    windows stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = t.val :=
  (by decide +kernel : ∀ t : Fin grid0.N, _)

/-- Row `p` of the image block at point `t` is image row `256·t + p`. -/
theorem imageRow (c : Dev nD) (t : Fin cfg0.N) (p : Fin 256) (r : Fin 8192) (hr : r.val = 256 * t.val + p.val) :
    row (iblk m c 0 t : Vec Ideal S256x1024 .f32) p = row (argX m c) r := by
  obtain ⟨e0, e1, -⟩ := idx_facts t
  funext g
  show V m c main_arg0 (((cfg0.win 0).blk t).view.emb (ix2 p g)) = argX m c (ix2 r g)
  rw [V_main_arg0]
  refine congrArg (m ((c : Thread nD τ).loc main_arg0)) (funext fun a => Fin.ext ?_)
  match a with
  | ⟨0, _⟩ => show win0_0.index t (0 : Fin 2) * 256 + 1 * p.val = r.val; omega
  | ⟨1, _⟩ => show win0_0.index t (1 : Fin 2) * 1024 + 1 * g.val = g.val; omega

/-- The first table's block at any point is the whole table. -/
theorem tableA_blk (c : Dev nD) (t : Fin cfg0.N) : tab (iblk m c 1 t : Vec Ideal S1024x2048 .bf16) = tab (argA m c) := by
  obtain ⟨-, -, e0, e1, -⟩ := idx_facts t
  funext g k
  show V m c main_v10 (((cfg0.win 1).blk t).view.emb (ix2 g k)) = argA m c (ix2 g k)
  rw [← V_tableA m c]
  refine congrArg (V m c main_v10) (funext fun a => Fin.ext ?_)
  match a with
  | ⟨0, _⟩ => show win0_1.index t (0 : Fin 2) * 1024 + 1 * g.val = g.val; omega
  | ⟨1, _⟩ => show win0_1.index t (1 : Fin 2) * 2048 + 1 * k.val = k.val; omega

/-- The second table's block at any point is the whole table. -/
theorem tableB_blk (c : Dev nD) (t : Fin cfg0.N) : tab (iblk m c 2 t : Vec Ideal S256x2048 .bf16) = tab (argB m c) := by
  obtain ⟨-, -, -, -, e0, e1, -⟩ := idx_facts t
  funext g k
  show V m c main_v11 (((cfg0.win 2).blk t).view.emb (ix2 g k)) = argB m c (ix2 g k)
  rw [← V_tableB m c]
  refine congrArg (V m c main_v11) (funext fun a => Fin.ext ?_)
  match a with
  | ⟨0, _⟩ => show win0_2.index t (0 : Fin 2) * 256 + 1 * g.val = g.val; omega
  | ⟨1, _⟩ => show win0_2.index t (1 : Fin 2) * 2048 + 1 * k.val = k.val; omega

/-- The fourth window's block at any point is the row of the first table's column mean squares. -/
theorem ca_blk (c : Dev nD) (t : Fin cfg0.N) :
    rowVec (iblk m c 3 t : Vec Ideal S1x2048 .f32) = colMeanSq (Ideal.ofBits .f32 0x44800000#32) (tab (argA m c)) := by
  obtain ⟨-, -, -, -, -, -, e0, e1, -⟩ := idx_facts t
  funext k
  show V m c main_v4 (((cfg0.win 3).blk t).view.emb (ix2 (0 : Fin 1) k)) = _
  rw [← V_ca m c k]
  refine congrArg (V m c main_v4) (funext fun a => Fin.ext ?_)
  match a with
  | ⟨0, _⟩ => show win0_3.index t (0 : Fin 2) * 1 + 1 * 0 = 0; omega
  | ⟨1, _⟩ => show win0_3.index t (1 : Fin 2) * 2048 + 1 * k.val = k.val; omega

/-- The fifth window's block at any point is the row of the second table's column mean squares. -/
theorem cb_blk (c : Dev nD) (t : Fin cfg0.N) :
    rowVec (iblk m c 4 t : Vec Ideal S1x2048 .f32) = colMeanSq (Ideal.ofBits .f32 0x43800000#32) (tab (argB m c)) := by
  obtain ⟨-, -, -, -, -, -, -, -, e0, e1, -⟩ := idx_facts t
  funext k
  show V m c main_v9 (((cfg0.win 4).blk t).view.emb (ix2 (0 : Fin 1) k)) = _
  rw [← V_cb m c k]
  refine congrArg (V m c main_v9) (funext fun a => Fin.ext ?_)
  match a with
  | ⟨0, _⟩ => show win0_4.index t (0 : Fin 2) * 1 + 1 * 0 = 0; omega
  | ⟨1, _⟩ => show win0_4.index t (1 : Fin 2) * 2048 + 1 * k.val = k.val; omega

/-- WHAT POINT `t` WRITES BACK is block `t` of `result`. -/
theorem flushed_eq (c : Dev nD) (t : Fin cfg0.N) :
    (dats m 0 c).flushed 5 t = ((cfg0.win 5).blk t).view.read (Elt Ideal) (result m c) := by
  rw [flushed5]
  funext y
  show out0_5 (iblk m c 0 t) (iblk m c 1 t) (iblk m c 2 t) (iblk m c 3 t) (iblk m c 4 t) y
    = result m c (((cfg0.win 5).blk t).view.emb y)
  obtain ⟨-, -, -, -, -, -, -, -, -, -, e5⟩ := idx_facts t
  have hy : (y 0).val < 256 := (y 0).isLt
  have hr : ((((cfg0.win 5).blk t).view.emb y) 0).val = 256 * t.val + (y 0).val := by
    show win0_5.index t (0 : Fin 1) * 256 + 1 * (y 0).val = _; omega
  rw [blockValue, imageRow m c t (y 0) _ hr, tableA_blk, tableB_blk, ca_blk, cb_blk]
  rfl

/-- An index of the output is in point `t`'s block iff it lies in the block's range. -/
theorem mem_blk (t : Fin cfg0.N) (i : S8192.Idx) :
    i ∈ ((cfg0.win 5).blk t).view.set ↔ ∀ a : Fin 1, win0_5.index t a * S256.size a ≤ (i a).val ∧ (i a).val < win0_5.index t a * S256.size a + S256.size a := by
  show i ∈ ((View.whole main_v12).slice (win0_5.rect t)).set ↔ _
  rw [View.set_slice_whole, Rect.mem_set_unit]
  exact Iff.rfl

/-- The 32 output blocks tile the output: entry `i` is in the block of point `i / 256`. -/
theorem cover (i : S8192.Idx) : ∃ t : Fin cfg0.N, (cfg0.win 5).flush t = true ∧ i ∈ ((cfg0.win 5).blk t).view.set := by
  have hi : (i 0).val < 8192 := (i 0).isLt
  refine ⟨⟨(i 0).val / 256, by rw [show cfg0.N = 32 from N_0]; omega⟩, flush0_5 _, ?_⟩
  rw [mem_blk]
  intro a
  obtain ⟨-, -, -, -, -, -, -, -, -, -, e5⟩ := idx_facts ⟨(i 0).val / 256, by rw [show cfg0.N = 32 from N_0]; omega⟩
  match a with
  | ⟨0, _⟩ =>
    show win0_5.index _ (0 : Fin 1) * 256 ≤ (i 0).val ∧ (i 0).val < win0_5.index _ (0 : Fin 1) * 256 + 256
    rw [e5]
    show (i 0).val / 256 * 256 ≤ (i 0).val ∧ (i 0).val < (i 0).val / 256 * 256 + 256
    omega

/-- THE OUTPUT ARRAY after the run is `result`. -/
theorem final (c : Dev nD) : (dats m 0 c).arrAt 5 cfg0.N = result m c :=
  (dats m 0 c).arrAt_eq_of_cover 5 (result m c) (fun t _ => flushed_eq m c t) (cover)

/-- The kernel's run: it terminates with the output at `result` and the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelArray

end
-- ==== Proof.RefOps.lean ====
/-
  The reference's host operations, read at an index by coordinates at this program's shapes.

  Broadcasts of a column, a vector or a row to the 8192 × 2048 matrices, sums and maxima along the rows, sums down
  the columns of the two tables, and the four matrix products, each as the plain finite sum or fold it is over the
  extended reals.
-/
import proofs.«114782_j88330297409972_1_alg».proof.Proof.Spec
import proofs.«114782_j88330297409972_1_alg».proof.Proof.Gen.ReferenceIdeal.Run
import proofs.«114782_j88330297409972_1_alg».proof.Proof.LibHostRowForms
import proofs.«114782_j88330297409972_1_alg».proof.Proof.LibPlainProduct

noncomputable section

open scoped BigOperators

namespace Cert.RefOps

open Cert.ReferenceIdeal Cert.ReferenceIdeal.Gen Cert.ReferenceIdeal.Value
open Idealize.ShloMosaic Idealize.ShloMosaic.ValueIdx Idealize.ShloMosaic.StableHlo Cert.Spec Cert.HostRowForms

/-! ## This program's host operations at coordinates -/

theorem hdivf_apply {s : Shape} (a b : FVec Ideal s .f32) (i : s.Idx) : Host.divf a b i = Ideal.div (a i) (b i) := rfl
theorem hexp_apply {s : Shape} (a : FVec Ideal s .f32) (i : s.Idx) : Host.exp a i = Ideal.exp (a i) := rfl

theorem col_apply {α : Type} (dims) (h : S8192x1.BroadcastsInDim S8192x2048 dims) (v : S8192x1.Idx → α) (r : Fin 8192) (k : Fin 2048) :
    broadcastInDim S8192x2048 dims h v (ix2 r k) = v (ix2 r (0 : Fin 1)) :=
  bcast_a1_ab_apply v dims (dims_eq_of_size h 0 0 (by decide) (by decide)) h r k

theorem vec_apply {α : Type} (dims) (h : S8192.BroadcastsInDim S8192x1 dims) (v : S8192.Idx → α) (r : Fin 8192) (u : Fin 1) :
    broadcastInDim S8192x1 dims h v (ix2 r u) = v (ix1 r) :=
  bcast_a_a1_apply v dims (dims_eq_of_size h 0 0 (by decide) (by decide)) h r u

theorem rowcopy_apply {α : Type} (dims) (h : S1x2048.BroadcastsInDim S8192x2048 dims) (v : S1x2048.Idx → α) (r : Fin 8192) (k : Fin 2048) :
    broadcastInDim S8192x2048 dims h v (ix2 r k) = v (ix2 (0 : Fin 1) k) :=
  bcast_1b_ab_apply v dims (dims_eq_of_size h 1 1 (by decide) (by decide)) h r k

theorem vecrow_apply {α : Type} (dims) (h : S2048.BroadcastsInDim S1x2048 dims) (v : S2048.Idx → α) (u : Fin 1) (k : Fin 2048) :
    broadcastInDim S1x2048 dims h v (ix2 u k) = v (ix1 k) :=
  bcast_b_1b_apply v dims (dims_eq_of_size h 0 1 (by decide) (by decide)) h u k

theorem sum1024 (x : FVec Ideal S8192x1024 .f32) (r : Fin 8192) :
    Host.reduceAdd x (constant S_ .f32 0x00000000#32) reducesTo_S8192x1024_S8192_d1 h_S_ (ix1 r) = ∑ g : Fin 1024, x (ix2 r g) :=
  reduceAdd_rows x _ (by decide) _ r

theorem sum2048 (x : FVec Ideal S8192x2048 .f32) (r : Fin 8192) :
    Host.reduceAdd x (constant S_ .f32 0x00000000#32) reducesTo_S8192x2048_S8192_d1 h_S_ (ix1 r) = ∑ k : Fin 2048, x (ix2 r k) :=
  reduceAdd_rows x _ (by decide) _ r

theorem sum256 (x : FVec Ideal S8192x256 .f32) (r : Fin 8192) :
    Host.reduceAdd x (constant S_ .f32 0x00000000#32) reducesTo_S8192x256_S8192_d1 h_S_ (ix1 r) = ∑ e : Fin 256, x (ix2 r e) :=
  reduceAdd_rows x _ (by decide) _ r

theorem colsumA (x : FVec Ideal S1024x2048 .f32) (k : Fin 2048) :
    Host.reduceAdd x (constant S_ .f32 0x00000000#32) reducesTo_S1024x2048_S2048_d0 h_S_ (ix1 k) = ∑ g : Fin 1024, x (ix2 g k) :=
  reduceAdd_cols x _ (by decide) _ k

theorem colsumB (x : FVec Ideal S256x2048 .f32) (k : Fin 2048) :
    Host.reduceAdd x (constant S_ .f32 0x00000000#32) reducesTo_S256x2048_S2048_d0 h_S_ (ix1 k) = ∑ e : Fin 256, x (ix2 e k) :=
  reduceAdd_cols x _ (by decide) _ k

theorem max2048 (x : FVec Ideal S8192x2048 .f32) (r : Fin 8192) :
    Host.reduce (FloatOps.maximumf (F := Ideal) (φ := .f32)) x (constant S_ .f32 0xFF800000#32) reducesTo_S8192x2048_S8192_d1 h_S_ (ix1 r)
      = (Finset.univ : Finset (Fin 2048)).fold max (Ideal.ofBits .f32 0xFF800000#32) (fun k => x (ix2 r k)) :=
  reduceMax_rows x _ (by decide) _ r

theorem dotA_apply (X : FVec Ideal S8192x1024 .f32) (A : FVec Ideal S1024x2048 .f32) (r : Fin 8192) (k : Fin 2048) :
    Host.dotGeneral dot_S8192x1024_S1024x2048_S8192x2048_1_0_0_1_n_n none X A (ix2 r k) = ∑ g : Fin 1024, X (ix2 r g) * A (ix2 g k) :=
  PlainProduct.dotGeneral_of_plain _ rfl none X A r k

theorem dotB_apply (Z : FVec Ideal S8192x256 .f32) (Bm : FVec Ideal S256x2048 .f32) (r : Fin 8192) (k : Fin 2048) :
    Host.dotGeneral dot_S8192x256_S256x2048_S8192x2048_1_0_0_1_n_n none Z Bm (ix2 r k) = ∑ e : Fin 256, Z (ix2 r e) * Bm (ix2 e k) :=
  PlainProduct.dotGeneral_of_plain _ rfl none Z Bm r k

theorem dotBt_apply (P : FVec Ideal S8192x2048 .f32) (Bm : FVec Ideal S256x2048 .f32) (r : Fin 8192) (e : Fin 256) :
    Host.dotGeneral dot_S8192x2048_S2048x256_S8192x256_1_0_0_1_n_n none P (transpose S2048x256 _ Bm transposes_S256x2048_S2048x256_1_0) (ix2 r e)
      = ∑ k : Fin 2048, P (ix2 r k) * Bm (ix2 e k) :=
  PlainProduct.dotGeneral_transposed_apply _ rfl none P Bm _ r e

theorem dotAt_apply (P : FVec Ideal S8192x2048 .f32) (A : FVec Ideal S1024x2048 .f32) (r : Fin 8192) (g : Fin 1024) :
    Host.dotGeneral dot_S8192x2048_S2048x1024_S8192x1024_1_0_0_1_n_n none P (transpose S2048x1024 _ A transposes_S1024x2048_S2048x1024_1_0) (ix2 r g)
      = ∑ k : Fin 2048, P (ix2 r k) * A (ix2 g k) :=
  PlainProduct.dotGeneral_transposed_apply _ rfl none P A _ r g

end Cert.RefOps

end
-- ==== Proof.RefRows.lean ====
/-
  The reference's stages read one row at a time.

  The reference works on all 8192 rows at once: every matrix it forms has a row per image, and every operation
  either acts entry by entry, or reduces along a row, or multiplies the rows by a fixed table. So entry `(r, k)` of
  each stage depends on row `r` of the stage before and on the tables alone. This module says so stage by stage —
  scores, shifted exponentials, normalisation, code, re-scoring, weights, reconstruction, mean squared
  difference — each as the row-level function of the specification.
-/
import proofs.«114782_j88330297409972_1_alg».proof.Proof.Spec
import proofs.«114782_j88330297409972_1_alg».proof.Proof.RefOps

noncomputable section

open scoped BigOperators

namespace Cert.RefRows

open Cert.ReferenceIdeal Cert.ReferenceIdeal.Gen Cert.ReferenceIdeal.Value
open Idealize.ShloMosaic Idealize.ShloMosaic.ValueIdx Idealize.ShloMosaic.StableHlo Cert.Spec Cert.HostRowForms Cert.RefOps

/-! ## The stages as functions of the stage before -/

/-- The scores of every row against the columns of `A`. -/
def scoresA (X : FVec Ideal S8192x1024 .f32) (A : FVec Ideal S1024x2048 .f32) : FVec Ideal S8192x2048 .f32 :=
  subf (subf (mulf (Host.dotGeneral dot_S8192x1024_S1024x2048_S8192x2048_1_0_0_1_n_n none X A) (broadcastInDim S8192x2048 ![] bcast_S_S8192x2048 (constant S_ .f32 0x3B000000#32))) (broadcastInDim S8192x2048 ![0, 1] bcast_S8192x1_S8192x2048_0_1 (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))))) (broadcastInDim S8192x2048 ![0, 1] bcast_S1x2048_S8192x2048_0_1 (broadcastInDim S1x2048 ![1] bcast_S2048_S1x2048_1 (Host.divf (Host.reduceAdd (mulf A A) (constant S_ .f32 0x00000000#32) reducesTo_S1024x2048_S2048_d0 h_S_) (broadcastInDim S2048 ![] bcast_S_S2048 (constant S_ .f32 0x44800000#32)))))

/-- The exponentials of the scores shifted by each row's greatest score. -/
def expShift (Lg : FVec Ideal S8192x2048 .f32) : FVec Ideal S8192x2048 .f32 :=
  Host.exp (subf Lg (broadcastInDim S8192x2048 ![0, 1] bcast_S8192x1_S8192x2048_0_1 (broadcastInDim S8192x1 ![0] bcast_S8192_S8192x1_0 (maximumf (broadcastInDim S8192 ![] bcast_S_S8192 (constant S_ .f32 0xFF800000#32)) (Host.reduce FloatOps.maximumf Lg (constant S_ .f32 0xFF800000#32) reducesTo_S8192x2048_S8192_d1 h_S_)))))

/-- Every row divided by its sum. -/
def normRows (E : FVec Ideal S8192x2048 .f32) : FVec Ideal S8192x2048 .f32 :=
  Host.divf E (broadcastInDim S8192x2048 ![0, 1] bcast_S8192x1_S8192x2048_0_1 (broadcastInDim S8192x1 ![0] bcast_S8192_S8192x1_0 (Host.reduceAdd E (constant S_ .f32 0x00000000#32) reducesTo_S8192x2048_S8192_d1 h_S_)))

/-- The code of every row: its weights combined with the rows of `B`. -/
def codes (P : FVec Ideal S8192x2048 .f32) (Bm : FVec Ideal S256x2048 .f32) : FVec Ideal S8192x256 .f32 :=
  Host.dotGeneral dot_S8192x2048_S2048x256_S8192x256_1_0_0_1_n_n none P (transpose S2048x256 [1, 0] Bm transposes_S256x2048_S2048x256_1_0)

/-- The exponentials of every code's scores against the columns of `B`. -/
def expScoresB (Z : FVec Ideal S8192x256 .f32) (Bm : FVec Ideal S256x2048 .f32) : FVec Ideal S8192x2048 .f32 :=
  Host.exp (subf (subf (mulf (Host.dotGeneral dot_S8192x256_S256x2048_S8192x2048_1_0_0_1_n_n none Z Bm) (broadcastInDim S8192x2048 ![] bcast_S_S8192x2048 (constant S_ .f32 0x3C000000#32))) (broadcastInDim S8192x2048 ![0, 1] bcast_S8192x1_S8192x2048_0_1 (Host.divf (broadcastInDim S8192x1 ![0] bcast_S8192_S8192x1_0 (Host.reduceAdd (mulf Z Z) (constant S_ .f32 0x00000000#32) reducesTo_S8192x256_S8192_d1 h_S_)) (broadcastInDim S8192x1 ![] bcast_S_S8192x1 (constant S_ .f32 0x43800000#32))))) (broadcastInDim S8192x2048 ![0, 1] bcast_S1x2048_S8192x2048_0_1 (broadcastInDim S1x2048 ![1] bcast_S2048_S1x2048_1 (Host.divf (Host.reduceAdd (mulf Bm Bm) (constant S_ .f32 0x00000000#32) reducesTo_S256x2048_S2048_d0 h_S_) (broadcastInDim S2048 ![] bcast_S_S2048 (constant S_ .f32 0x43800000#32))))))

/-- Every row divided by `0.1 +` its sum. -/
def dampRows (Q : FVec Ideal S8192x2048 .f32) : FVec Ideal S8192x2048 .f32 :=
  Host.divf Q (broadcastInDim S8192x2048 ![0, 1] bcast_S8192x1_S8192x2048_0_1 (addf (broadcastInDim S8192x1 ![] bcast_S_S8192x1 (constant S_ .f32 0x3DCCCCCD#32)) (broadcastInDim S8192x1 ![0] bcast_S8192_S8192x1_0 (Host.reduceAdd Q (constant S_ .f32 0x00000000#32) reducesTo_S8192x2048_S8192_d1 h_S_))))

/-- Every row reconstructed from its weights and the rows of `A`. -/
def recon (Q : FVec Ideal S8192x2048 .f32) (A : FVec Ideal S1024x2048 .f32) : FVec Ideal S8192x1024 .f32 :=
  Host.dotGeneral dot_S8192x2048_S2048x1024_S8192x1024_1_0_0_1_n_n none Q (transpose S2048x1024 [1, 0] A transposes_S1024x2048_S2048x1024_1_0)

/-- The mean of the squares of every row of a difference. -/
def meanSqRows (Dm : FVec Ideal S8192x1024 .f32) : FVec Ideal S8192 .f32 :=
  Host.divf (Host.reduceAdd (mulf Dm Dm) (constant S_ .f32 0x00000000#32) reducesTo_S8192x1024_S8192_d1 h_S_) (broadcastInDim S8192 ![] bcast_S_S8192 (constant S_ .f32 0x44800000#32))

/-! ## Each stage at a row -/

theorem scoresA_apply (X : FVec Ideal S8192x1024 .f32) (A : FVec Ideal S1024x2048 .f32) (r : Fin 8192) (k : Fin 2048) :
    scoresA X A (ix2 r k) = logit (Ideal.ofBits .f32 0x44800000#32) (Ideal.ofBits .f32 0x3B000000#32) (row X r) (tab A)
      (colMeanSq (Ideal.ofBits .f32 0x44800000#32) (tab A)) k := by
  simp only [scoresA, logit, colMeanSq, subf_apply, mulf_apply, hdivf_apply, col_apply, vec_apply, rowcopy_apply, vecrow_apply,
    bcast_scalar_apply, sum1024, colsumA, dotA_apply]

theorem expShift_apply (Lg : FVec Ideal S8192x2048 .f32) (l : Fin 8192 → Fin 2048 → EReal) (h : ∀ r k, Lg (ix2 r k) = l r k)
    (r : Fin 8192) (k : Fin 2048) : expShift Lg (ix2 r k) = Ideal.exp (l r k - rowMax (l r)) := by
  simp only [expShift, hexp_apply, subf_apply, col_apply, vec_apply, h]
  rw [maximumf_apply, bcast_scalar_apply, max2048]
  have hl : (fun j => Lg (ix2 r j)) = l r := funext fun j => h r j
  rw [hl]
  rfl

theorem normRows_apply (E : FVec Ideal S8192x2048 .f32) (e : Fin 8192 → Fin 2048 → EReal) (h : ∀ r k, E (ix2 r k) = e r k)
    (r : Fin 8192) (k : Fin 2048) : normRows E (ix2 r k) = normalize (e r) k := by
  simp only [normRows, Spec.normalize, hdivf_apply, col_apply, vec_apply, sum2048, h]

theorem codes_apply (P : FVec Ideal S8192x2048 .f32) (Bm : FVec Ideal S256x2048 .f32) (p : Fin 8192 → Fin 2048 → EReal)
    (h : ∀ r k, P (ix2 r k) = p r k) (r : Fin 8192) (e : Fin 256) : codes P Bm (ix2 r e) = project (p r) (tab Bm) e := by
  unfold codes project
  rw [dotBt_apply]
  exact Finset.sum_congr rfl fun k _ => by rw [h]

theorem expScoresB_apply (Z : FVec Ideal S8192x256 .f32) (Bm : FVec Ideal S256x2048 .f32) (z : Fin 8192 → Fin 256 → EReal)
    (h : ∀ r e, Z (ix2 r e) = z r e) (r : Fin 8192) (k : Fin 2048) :
    expScoresB Z Bm (ix2 r k) = expLogit (z r) (tab Bm) (colMeanSq (Ideal.ofBits .f32 0x43800000#32) (tab Bm)) k := by
  simp only [expScoresB, expLogit, logit, colMeanSq, hexp_apply, subf_apply, mulf_apply, hdivf_apply, col_apply, vec_apply,
    rowcopy_apply, vecrow_apply, bcast_scalar_apply, sum256, colsumB, dotB_apply, h]

theorem dampRows_apply (Q : FVec Ideal S8192x2048 .f32) (q : Fin 8192 → Fin 2048 → EReal) (h : ∀ r k, Q (ix2 r k) = q r k)
    (r : Fin 8192) (k : Fin 2048) : dampRows Q (ix2 r k) = damp (q r) k := by
  simp only [dampRows, damp, hdivf_apply, addf_apply, col_apply, vec_apply, bcast_scalar_apply, sum2048, h]

theorem recon_apply (Q : FVec Ideal S8192x2048 .f32) (A : FVec Ideal S1024x2048 .f32) (q : Fin 8192 → Fin 2048 → EReal)
    (h : ∀ r k, Q (ix2 r k) = q r k) (r : Fin 8192) (g : Fin 1024) : recon Q A (ix2 r g) = project (q r) (tab A) g := by
  unfold recon project
  rw [dotAt_apply]
  exact Finset.sum_congr rfl fun k _ => by rw [h]

theorem meanSqDiff_apply (Q : FVec Ideal S8192x2048 .f32) (A : FVec Ideal S1024x2048 .f32) (X : FVec Ideal S8192x1024 .f32)
    (q : Fin 8192 → Fin 2048 → EReal) (h : ∀ r k, Q (ix2 r k) = q r k) (r : Fin 8192) :
    meanSqRows (subf (recon Q A) X) (ix1 r) = loss (row X r) (tab A) (q r) := by
  simp only [meanSqRows, loss, hdivf_apply, bcast_scalar_apply, sum1024, mulf_apply, subf_apply, recon_apply Q A q h]

/-! ## One refinement at a row -/

/-- The mean squares of the columns of `A`, the divisor 1024 as its float word. -/
abbrev caOf (A : FVec Ideal S1024x2048 .f32) : Fin 2048 → EReal := colMeanSq (Ideal.ofBits .f32 0x44800000#32) (tab A)

/-- The mean squares of the columns of `B`, the divisor 256 as its float word. -/
abbrev cbOf (Bm : FVec Ideal S256x2048 .f32) : Fin 2048 → EReal := colMeanSq (Ideal.ofBits .f32 0x43800000#32) (tab Bm)

/-- The code after one refinement, at a row: the weights times the damped exponentials of the old code's scores,
    normalised, combined with the rows of `B`. -/
theorem refine_apply (P : FVec Ideal S8192x2048 .f32) (Z : FVec Ideal S8192x256 .f32) (Bm : FVec Ideal S256x2048 .f32)
    (p : Fin 8192 → Fin 2048 → EReal) (z : Fin 8192 → Fin 256 → EReal)
    (hP : ∀ r k, P (ix2 r k) = p r k) (hZ : ∀ r e, Z (ix2 r e) = z r e) (r : Fin 8192) (e : Fin 256) :
    codes (normRows (mulf P (dampRows (expScoresB Z Bm)))) Bm (ix2 r e) = emStep (p r) (tab Bm) (cbOf Bm) (z r) e := by
  have hQ : ∀ r k, expScoresB Z Bm (ix2 r k) = expLogit (z r) (tab Bm) (cbOf Bm) k := expScoresB_apply Z Bm z hZ
  have hD : ∀ r k, dampRows (expScoresB Z Bm) (ix2 r k) = damp (expLogit (z r) (tab Bm) (cbOf Bm)) k :=
    dampRows_apply (expScoresB Z Bm) (fun r => expLogit (z r) (tab Bm) (cbOf Bm)) hQ
  have hW : ∀ r k, mulf P (dampRows (expScoresB Z Bm)) (ix2 r k) = weigh (p r) (expLogit (z r) (tab Bm) (cbOf Bm)) k :=
    fun r k => congrArg₂ (· * ·) (hP r k) (hD r k)
  have hN : ∀ r k, normRows (mulf P (dampRows (expScoresB Z Bm))) (ix2 r k)
      = normalize (weigh (p r) (expLogit (z r) (tab Bm) (cbOf Bm))) k :=
    normRows_apply (mulf P (dampRows (expScoresB Z Bm))) (fun r => weigh (p r) (expLogit (z r) (tab Bm) (cbOf Bm))) hW
  exact codes_apply (normRows (mulf P (dampRows (expScoresB Z Bm)))) Bm
    (fun r => normalize (weigh (p r) (expLogit (z r) (tab Bm) (cbOf Bm)))) hN r e

/-- The softmax weights at a row. -/
theorem weights_apply (X : FVec Ideal S8192x1024 .f32) (A : FVec Ideal S1024x2048 .f32) (r : Fin 8192) (k : Fin 2048) :
    normRows (expShift (scoresA X A)) (ix2 r k) = encode (row X r) (tab A) (caOf A) k :=
  normRows_apply (expShift (scoresA X A))
    (fun r k => Ideal.exp (logit (Ideal.ofBits .f32 0x44800000#32) (Ideal.ofBits .f32 0x3B000000#32) (row X r) (tab A) (caOf A) k
      - rowMax (logit (Ideal.ofBits .f32 0x44800000#32) (Ideal.ofBits .f32 0x3B000000#32) (row X r) (tab A) (caOf A))))
    (expShift_apply (scoresA X A)
      (fun r => logit (Ideal.ofBits .f32 0x44800000#32) (Ideal.ofBits .f32 0x3B000000#32) (row X r) (tab A) (caOf A))
      (scoresA_apply X A)) r k

/-! ## The generated run's named stages are these functions -/

section Named

variable (V0 : Valuation τ sig (Elt Ideal))

theorem v16_eq : res_main_v16 V0 = scoresA (V0 (Proc.devRef .tc main_arg0)) (V0 (Proc.devRef .tc main_arg1)) := rfl
theorem v23_eq : res_main_v23 V0 = expShift (res_main_v16 V0) := rfl
theorem v27_eq : res_main_v27 V0 = normRows (res_main_v23 V0) := rfl
theorem v29_eq : res_main_v29 V0 = codes (res_main_v27 V0) (V0 (Proc.devRef .tc main_arg2)) := rfl
theorem v47_eq : res_main_v47 V0 = expScoresB (res_main_v29 V0) (V0 (Proc.devRef .tc main_arg2)) := rfl
theorem v54_eq : res_main_v54 V0 = mulf (res_main_v27 V0) (dampRows (res_main_v47 V0)) := rfl
theorem v60_eq : res_main_v60 V0 = codes (normRows (res_main_v54 V0)) (V0 (Proc.devRef .tc main_arg2)) := rfl
theorem v78_eq : res_main_v78 V0 = expScoresB (res_main_v60 V0) (V0 (Proc.devRef .tc main_arg2)) := rfl
theorem v85_eq : res_main_v85 V0 = mulf (res_main_v27 V0) (dampRows (res_main_v78 V0)) := rfl
theorem v91_eq : res_main_v91 V0 = codes (normRows (res_main_v85 V0)) (V0 (Proc.devRef .tc main_arg2)) := rfl
theorem v109_eq : res_main_v109 V0 = expScoresB (res_main_v91 V0) (V0 (Proc.devRef .tc main_arg2)) := rfl
theorem v116_eq : res_main_v116 V0 = mulf (res_main_v27 V0) (dampRows (res_main_v109 V0)) := rfl
theorem v122_eq : res_main_v122 V0 = codes (normRows (res_main_v116 V0)) (V0 (Proc.devRef .tc main_arg2)) := rfl
theorem v140_eq : res_main_v140 V0 = expScoresB (res_main_v122 V0) (V0 (Proc.devRef .tc main_arg2)) := rfl
theorem v147_eq : res_main_v147 V0 = mulf (res_main_v27 V0) (dampRows (res_main_v140 V0)) := rfl
theorem v153_eq : res_main_v153 V0 = codes (normRows (res_main_v147 V0)) (V0 (Proc.devRef .tc main_arg2)) := rfl
theorem v171_eq : res_main_v171 V0 = expScoresB (res_main_v153 V0) (V0 (Proc.devRef .tc main_arg2)) := rfl
theorem v180_eq : res_main_v180 V0
    = subf (recon (dampRows (res_main_v171 V0)) (V0 (Proc.devRef .tc main_arg1))) (V0 (Proc.devRef .tc main_arg0)) := rfl

/-- THE REFERENCE'S RESULT AT A ROW: the specification's function of that image row and the two tables, the column
    mean squares being the tables' own. -/
theorem result_row (X : FVec Ideal S8192x1024 .f32) (A : FVec Ideal S1024x2048 .f32) (Bm : FVec Ideal S256x2048 .f32)
    (h0 : V0 (Proc.devRef .tc main_arg0) = X) (h1 : V0 (Proc.devRef .tc main_arg1) = A) (h2 : V0 (Proc.devRef .tc main_arg2) = Bm)
    (r : Fin 8192) :
    meanSqRows (res_main_v180 V0) (ix1 r) = rowLoss (row X r) (tab A) (tab Bm) (caOf A) (cbOf Bm) := by
  obtain ⟨enc, henc⟩ : ∃ enc : Fin 8192 → Fin 2048 → EReal, ∀ r, enc r = encode (row X r) (tab A) (caOf A) :=
    ⟨fun r => encode (row X r) (tab A) (caOf A), fun _ => rfl⟩
  have h27 : ∀ r k, res_main_v27 V0 (ix2 r k) = enc r k := fun r k => by
    rw [v27_eq, v23_eq, v16_eq, h0, h1, henc]; exact weights_apply X A r k
  have h29 : ∀ r e, res_main_v29 V0 (ix2 r e) = codeAfter (enc r) (tab Bm) (cbOf Bm) 0 e := fun r e => by
    rw [v29_eq, h2]; exact codes_apply (res_main_v27 V0) Bm enc h27 r e
  have h60 : ∀ r e, res_main_v60 V0 (ix2 r e) = codeAfter (enc r) (tab Bm) (cbOf Bm) 1 e := fun r e => by
    rw [v60_eq, v54_eq, v47_eq, h2]
    exact refine_apply (res_main_v27 V0) (res_main_v29 V0) Bm enc (fun r => codeAfter (enc r) (tab Bm) (cbOf Bm) 0) h27 h29 r e
  have h91 : ∀ r e, res_main_v91 V0 (ix2 r e) = codeAfter (enc r) (tab Bm) (cbOf Bm) 2 e := fun r e => by
    rw [v91_eq, v85_eq, v78_eq, h2]
    exact refine_apply (res_main_v27 V0) (res_main_v60 V0) Bm enc (fun r => codeAfter (enc r) (tab Bm) (cbOf Bm) 1) h27 h60 r e
  have h122 : ∀ r e, res_main_v122 V0 (ix2 r e) = codeAfter (enc r) (tab Bm) (cbOf Bm) 3 e := fun r e => by
    rw [v122_eq, v116_eq, v109_eq, h2]
    exact refine_apply (res_main_v27 V0) (res_main_v91 V0) Bm enc (fun r => codeAfter (enc r) (tab Bm) (cbOf Bm) 2) h27 h91 r e
  have h153 : ∀ r e, res_main_v153 V0 (ix2 r e) = codeAfter (enc r) (tab Bm) (cbOf Bm) 4 e := fun r e => by
    rw [v153_eq, v147_eq, v140_eq, h2]
    exact refine_apply (res_main_v27 V0) (res_main_v122 V0) Bm enc (fun r => codeAfter (enc r) (tab Bm) (cbOf Bm) 3) h27 h122 r e
  have hq : ∀ r k, dampRows (expScoresB (res_main_v153 V0) Bm) (ix2 r k)
      = damp (expLogit (codeAfter (enc r) (tab Bm) (cbOf Bm) 4) (tab Bm) (cbOf Bm)) k :=
    dampRows_apply (expScoresB (res_main_v153 V0) Bm) (fun r => expLogit (codeAfter (enc r) (tab Bm) (cbOf Bm) 4) (tab Bm) (cbOf Bm))
      (expScoresB_apply (res_main_v153 V0) Bm (fun r => codeAfter (enc r) (tab Bm) (cbOf Bm) 4) h153)
  rw [v180_eq, v171_eq, h0, h1, h2,
    meanSqDiff_apply (dampRows (expScoresB (res_main_v153 V0) Bm)) A X
      (fun r => damp (expLogit (codeAfter (enc r) (tab Bm) (cbOf Bm) 4) (tab Bm) (cbOf Bm))) hq r, henc]
  rfl

end Named

end Cert.RefRows

end
-- ==== Proof.lean ====
/-
  A soft vector-quantisation loss, tiled over image rows, against its whole-array form.

  For each of 8192 image rows `x` (1024 entries) and two tables `A` (1024 × 2048) and `B` (256 × 2048): the row is
  scored against the columns of `A` by minus the mean squared distance in expanded form, the scores go through a
  softmax to weights, a 256-entry code is formed from the weights and the rows of `B`; four times the code is
  re-scored against the columns of `B`, the exponentials of the scores are damped by `0.1 +` their sum, multiplied
  by the weights and normalised, and a new code is formed; finally the damped exponentials of the last code
  reconstruct a row from the rows of `A`, and the result is the mean squared difference to `x`.

  The kernel does this 256 rows at a time at each of 32 grid points, with the tables and their column mean squares
  (formed once, before the call) held whole; the reference does it for all rows at once, recomputing the column mean
  squares where it needs them. Over the extended reals every operation of either program acts on each row by
  itself: entry by entry, or a sum or maximum along the row, or a product of the row with a fixed table; the
  narrower float format the kernel feeds its products with changes no value. So both programs compute, at output
  entry `i`, one and the same function of image row `i` and the two tables (`Cert.Spec.rowLoss`): the kernel's
  side is `Cert.KernelArray.run` (the body at a row of its block, the blocks tiling the output), the reference's
  `Cert.RefRows.result_row` (each of its stages at a row). No sum is regrouped and no quotient cancelled, so
  nothing needs the inputs to be finite; the precondition is not opened. The idealization rewrote no operation, so
  `preserves` has no conjunct.
-/
import proofs.«114782_j88330297409972_1_alg».proof.Defs
import proofs.«114782_j88330297409972_1_alg».proof.Proof.Gen.Kernel
import proofs.«114782_j88330297409972_1_alg».proof.Proof.Gen.Kernel.Skeleton
import proofs.«114782_j88330297409972_1_alg».proof.Proof.Gen.Kernel.Launch
import proofs.«114782_j88330297409972_1_alg».proof.Proof.Gen.Kernel.Points
import proofs.«114782_j88330297409972_1_alg».proof.Proof.Gen.Kernel.Frame
import proofs.«114782_j88330297409972_1_alg».proof.Proof.Gen.KernelIdeal
import proofs.«114782_j88330297409972_1_alg».proof.Proof.Gen.KernelIdeal.Skeleton
import proofs.«114782_j88330297409972_1_alg».proof.Proof.Gen.KernelIdeal.Launch
import proofs.«114782_j88330297409972_1_alg».proof.Proof.Gen.KernelIdeal.Points
import proofs.«114782_j88330297409972_1_alg».proof.Proof.Gen.KernelIdeal.Frame
import proofs.«114782_j88330297409972_1_alg».proof.Proof.Gen.ReferenceIdeal
import proofs.«114782_j88330297409972_1_alg».proof.Proof.Gen.Pre_finite_inputs
import proofs.«114782_j88330297409972_1_alg».proof.Proof.Gen.KernelIdeal.Value
import proofs.«114782_j88330297409972_1_alg».proof.Proof.Gen.ReferenceIdeal.Run
import proofs.«114782_j88330297409972_1_alg».proof.Proof.KernelArray
import proofs.«114782_j88330297409972_1_alg».proof.Proof.RefRows
import Idealize.ShloMosaic.Adequacy
import Idealize.ShloMosaic.Init

noncomputable section

namespace Cert.Proof

open Idealize.ShloMosaic Idealize.ShloMosaic.ValueIdx Idealize.SL.Sem

/-- The kernel as printed runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- Over the extended reals, from memories that agree on the images and the two tables, the kernel ends with
    output entry `i` at the row-level function of image row `i` and the tables, and so does the reference. -/
theorem algebraic : Cert.algebraic_KernelIdeal_ReferenceIdeal := by
  intro m ρ m' ρ' _ hagree
  refine ⟨fun c => Cert.KernelArray.result m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  funext i
  show Cert.RefRows.meanSqRows (Cert.ReferenceIdeal.Value.res_main_v180 (StableHlo.launchContents m' c)) i = _
  rw [eq_ix1 i]
  exact Cert.RefRows.result_row (StableHlo.launchContents m' c) (Cert.KernelTables.argX m c) (Cert.KernelTables.argA m c)
    (Cert.KernelTables.argB m c) (hagree c).1 (hagree c).2.1 (hagree c).2.2 (i 0)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
